-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x64 : Shape := ⟨2, ![800000, 64]⟩
abbrev S320x128 : Shape := ⟨2, ![320, 128]⟩
abbrev S128 : Shape := ⟨1, ![128]⟩
abbrev S128x128 : Shape := ⟨2, ![128, 128]⟩
abbrev S64x1 : Shape := ⟨2, ![64, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S320x128 : S_.BroadcastsInDim S320x128 (![] : Fin 0 → Fin S320x128.rank)
  reducesTo_S320x128_S_d0_1 : S320x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S64x1 .f32) (main_arg8 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S64x1 .f32 := Host.absf main_arg7
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x800000 32) (main_arg2 : FVec F S800000x64 .f32) (main_arg3 : FVec F S320x128 .f32) (main_arg4 : FVec F S128 .f32) (main_arg5 : FVec F S128x128 .f32) (main_arg6 : FVec F S128 .f32) (main_arg7 : FVec F S64x1 .f32) (main_arg8 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x64 .f32 := Host.absf main_arg2
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S320x128 .f32 := Host.absf main_arg3
  let main_cst_2 : FVec F S_ .f32 := constant S_ .f32 0x7F800000#32
  let main_v10 : FVec F S320x128 .f32 := broadcastInDim S320x128 ![] bcast_S_S320x128 main_cst_2
  let main_v11 : IVec S320x128 1 := cmpf .olt main_v9 main_v10
  let main_c_3 : IVec S_ 1 := constantI S_ 1 1#1
  let main_v12 : IVec S_ 1 := (fun x v => Host.reduce IntOp.andi x v reducesTo_S320x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S50000x128 : Shape := ⟨2, ![50000, 128]⟩
abbrev S2x800000 : Shape := ⟨2, ![2, 800000]⟩
abbrev S800000x64 : Shape := ⟨2, ![800000, 64]⟩
abbrev S320x128 : Shape := ⟨2, ![320, 128]⟩
abbrev S128 : Shape := ⟨1, ![128]⟩
abbrev S128x128 : Shape := ⟨2, ![128, 128]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S64x128 : Shape := ⟨2, ![64, 128]⟩
abbrev S1x128 : Shape := ⟨2, ![1, 128]⟩
abbrev S1x64 : Shape := ⟨2, ![1, 64]⟩
abbrev S1x1 : Shape := ⟨2, ![1, 1]⟩
abbrev S6400x128 : Shape := ⟨2, ![6400, 128]⟩
abbrev S6400x64 : Shape := ⟨2, ![6400, 64]⟩
abbrev S6400 : Shape := ⟨1, ![6400]⟩
abbrev S6400x1 : Shape := ⟨2, ![6400, 1]⟩

abbrev nBuf : Space → Nat
  | .hbm => 50
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x64, .f32⟩
  | .hbm, ⟨3, _⟩ => ⟨S320x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S64x1, .f32⟩
  | .hbm, ⟨8, _⟩ => ⟨S1, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S50000x128, .bf16⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .bf16⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x128, .bf16⟩
  | .hbm, ⟨32, _⟩ => ⟨S128x128, .f32⟩
  | .hbm, ⟨33, _⟩ => ⟨S128x128, .bf16⟩
  | .hbm, ⟨34, _⟩ => ⟨S128x128, .f32⟩
  | .hbm, ⟨35, _⟩ => ⟨S128x128, .bf16⟩
  | .hbm, ⟨36, _⟩ => ⟨S64x128, .f32⟩
  | .hbm, ⟨37, _⟩ => ⟨S64x128, .bf16⟩
  | .hbm, ⟨38, _⟩ => ⟨S128x128, .bf16⟩
  | .hbm, ⟨39, _⟩ => ⟨S1x128, .f32⟩
  | .hbm, ⟨40, _⟩ => ⟨S1x128, .f32⟩
  | .hbm, ⟨41, _⟩ => ⟨S1x64, .f32⟩
  | .hbm, ⟨42, _⟩ => ⟨S1x1, .f32⟩
  | .hbm, ⟨43, _⟩ => ⟨S800000x128, .bf16⟩
  | .hbm, ⟨44, _⟩ => ⟨S800000x128, .f32⟩
  | .hbm, ⟨45, _⟩ => ⟨S_, .f32⟩
  | .hbm, ⟨46, _⟩ => ⟨S50000x128, .f32⟩
  | .hbm, ⟨47, _⟩ => ⟨S800000x1, .i32⟩
  | .hbm, ⟨48, _⟩ => ⟨S50000x128, .f32⟩
  | .hbm, ⟨49, _⟩ => ⟨S50000x128, .f32⟩
  | .local _ .vmem, ⟨0, _⟩ => ⟨S6400x128, .bf16⟩
  | .local _ .vmem, ⟨1, _⟩ => ⟨S6400x128, .bf16⟩
  | .local _ .vmem, ⟨2, _⟩ => ⟨S6400x128, .bf16⟩
  | .local _ .vmem, ⟨3, _⟩ => ⟨S6400x128, .bf16⟩
  | .local _ .vmem, ⟨4, _⟩ => ⟨S6400x64, .f32⟩
  | .local _ .vmem, ⟨5, _⟩ => ⟨S6400x64, .f32⟩
  | .local _ .vmem, ⟨6, _⟩ => ⟨S128x128, .bf16⟩
  | .local _ .vmem, ⟨7, _⟩ => ⟨S128x128, .bf16⟩
  | .local _ .vmem, ⟨8, _⟩ => ⟨S64x128, .bf16⟩
  | .local _ .vmem, ⟨9, _⟩ => ⟨S1x128, .f32⟩
  | .local _ .vmem, ⟨10, _⟩ => ⟨S128x128, .bf16⟩
  | .local _ .vmem, ⟨11, _⟩ => ⟨S1x128, .f32⟩
  | .local _ .vmem, ⟨12, _⟩ => ⟨S1x64, .f32⟩
  | .local _ .vmem, ⟨13, _⟩ => ⟨S1x1, .f32⟩
  | .local _ .vmem, ⟨14, _⟩ => ⟨S6400x128, .bf16⟩
  | .local _ .vmem, ⟨15, _⟩ => ⟨S6400x128, .bf16⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S6400x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  slices_S320x128_S128x128_0_0 : S320x128.Slices ![0, 0] S128x128
  slices_S320x128_S128x128_128_0 : S320x128.Slices ![128, 0] S128x128
  slices_S320x128_S64x128_256_0 : S320x128.Slices ![256, 0] S64x128
  shapeCasts_S128_S1x128 : S128.ShapeCasts S1x128
  transposes_S64x1_S1x64_1_0 : S64x1.Transposes [1, 0] S1x64
  shapeCasts_S1_S1x1 : S1.ShapeCasts S1x1
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S6400x64_S6400x64_0_0 : ∀ a, (![0, 0] : Fin 2 → Nat) a + S6400x64.size a ≤ S6400x64.size a
  h_S6400x64 : 0 < S6400x64.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6400x128 : S1x128.Broadcasts S6400x128
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S6400x64 : S1x64.Broadcasts S6400x64
  reduces_S6400x64_S6400 : S6400x64.Reduces [1] S6400
  shapeCasts_S6400_S6400x1 : S6400.ShapeCasts S6400x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S6400x1 : S1x1.Broadcasts S6400x1
  broadcasts_S6400x1_S6400x128 : S6400x1.Broadcasts S6400x128
  packedbf16_S6400x128_S6400x128_0_0 : (Rect.unit (s := S6400x128) ![0, 0] S6400x128.size inb_S6400x128_S6400x128_0_0).PackedRows (EltTy.packing .bf16)
  bcast_S_S50000x128 : S_.BroadcastsInDim S50000x128 (![] : Fin 0 → Fin S50000x128.rank)
  gather_S50000x128_S800000x1_S800000x128_1_0_n_n_0_1_1128_wf : GatherDims.WF S50000x128 S800000x1 S800000x128 [1] [0] [] [0] [] 1 ![1, 128]
  dot_S6400x128_S128x128_S6400x128_1_0_0_1_n_n_wf : DotDims.WF S6400x128 S128x128 S6400x128 [1] [0] [0] [1] [] []
  dot_S6400x64_S64x128_S6400x128_1_0_0_1_n_n_wf : DotDims.WF S6400x64 S64x128 S6400x128 [1] [0] [0] [1] [] []
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S800000x128.size a
  hwx0_0 : ∀ i : grid0.Coords, EltTy.bits .bf16 = 32 ∨ (Rect.block (s := S800000x128) S6400x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x128.size a ≤ S800000x128.size a
  hwx0_1 : ∀ i : grid0.Coords, EltTy.bits .bf16 = 32 ∨ (Rect.block (s := S800000x128) S6400x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x64.size a ≤ S800000x64.size a
  hwx0_2 : ∀ i : grid0.Coords, EltTy.bits .f32 = 32 ∨ (Rect.block (s := S800000x64) S6400x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .bf16 = 32 ∨ (Rect.block (s := S64x128) S64x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S6400x128.size a ≤ S800000x128.size a
  hwx0_11 : ∀ i : grid0.Coords, EltTy.bits .bf16 = 32 ∨ (Rect.block (s := S800000x128) S6400x128.size (cc0_transform_11 i) (hinb0_11 i)).WholeWords (EltTy.packing .bf16)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def dot_S6400x64_S64x128_S6400x128_1_0_0_1_n_n : DotDims S6400x64 S64x128 S6400x128 where
  lhsContracting := [1]
  rhsContracting := [0]
  lhsNonContracting := [0]
  rhsNonContracting := [1]
  lhsBatch := []
  rhsBatch := []
  wf := dot_S6400x64_S64x128_S6400x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_v11) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S6400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S6400x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v27) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v28) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v29) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v30) S6400x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x64 : Shape := ⟨2, ![800000, 64]⟩
abbrev S320x128 : Shape := ⟨2, ![320, 128]⟩
abbrev S128 : Shape := ⟨1, ![128]⟩
abbrev S128x128 : Shape := ⟨2, ![128, 128]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S800000x1 : Shape := ⟨2, ![800000, 1]⟩
abbrev S1x1 : Shape := ⟨2, ![1, 1]⟩
abbrev S_ : Shape := ⟨0, ![]⟩
abbrev S800000x128 : Shape := ⟨2, ![800000, 128]⟩
abbrev S800000x320 : Shape := ⟨2, ![800000, 320]⟩
abbrev S1x128 : Shape := ⟨2, ![1, 128]⟩

abbrev nBuf : Space → Nat
  | .hbm => 62
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x64, .f32⟩
  | .hbm, ⟨3, _⟩ => ⟨S320x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S64x1, .f32⟩
  | .hbm, ⟨8, _⟩ => ⟨S1, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S800000x1, .f32⟩
  | .hbm, ⟨14, _⟩ => ⟨S1x1, .f32⟩
  | .hbm, ⟨15, _⟩ => ⟨S800000x1, .f32⟩
  | .hbm, ⟨16, _⟩ => ⟨S800000x1, .f32⟩
  | .hbm, ⟨17, _⟩ => ⟨S800000x1, .f32⟩
  | .hbm, ⟨18, _⟩ => ⟨S800000x1, .f32⟩
  | .hbm, ⟨19, _⟩ => ⟨S_, .f32⟩
  | .hbm, ⟨20, _⟩ => ⟨S800000x1, .f32⟩
  | .hbm, ⟨21, _⟩ => ⟨S800000x1, .f32⟩
  | .hbm, ⟨22, _⟩ => ⟨S_, .f32⟩
  | .hbm, ⟨23, _⟩ => ⟨S800000x1, .f32⟩
  | .hbm, ⟨24, _⟩ => ⟨S800000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x128, .f32⟩
  | .hbm, ⟨43, _⟩ => ⟨S800000x320, .f32⟩
  | .hbm, ⟨44, _⟩ => ⟨S800000x128, .f32⟩
  | .hbm, ⟨45, _⟩ => ⟨S1x128, .f32⟩
  | .hbm, ⟨46, _⟩ => ⟨S800000x128, .f32⟩
  | .hbm, ⟨47, _⟩ => ⟨S800000x128, .f32⟩
  | .hbm, ⟨48, _⟩ => ⟨S_, .f32⟩
  | .hbm, ⟨49, _⟩ => ⟨S800000x128, .f32⟩
  | .hbm, ⟨50, _⟩ => ⟨S800000x128, .f32⟩
  | .hbm, ⟨51, _⟩ => ⟨S800000x128, .f32⟩
  | .hbm, ⟨52, _⟩ => ⟨S1x128, .f32⟩
  | .hbm, ⟨53, _⟩ => ⟨S800000x128, .f32⟩
  | .hbm, ⟨54, _⟩ => ⟨S800000x128, .f32⟩
  | .hbm, ⟨55, _⟩ => ⟨S800000x128, .f32⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_2 : Ref sig .tc := ⟨.hbm, 34, rfl⟩
abbrev main_v21 : Ref sig .tc := ⟨.hbm, 35, rfl⟩
abbrev main_v22 : Ref sig .tc := ⟨.hbm, 36, rfl⟩
abbrev main_c_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_4 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x64_S800000x320_d1 : Shape.Concatenates [S800000x128, S800000x128, S800000x64] S800000x320 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  dot_S800000x64_S64x1_S800000x1_1_0_0_1_n_n_wf : DotDims.WF S800000x64 S64x1 S800000x1 [1] [0] [0] [1] [] []
  gather_S50000x128_S800000x1_S800000x128_1_0_n_n_0_1_1128_wf : GatherDims.WF S50000x128 S800000x1 S800000x128 [1] [0] [] [0] [] 1 ![1, 128]
  dot_S800000x320_S320x128_S800000x128_1_0_0_1_n_n_wf : DotDims.WF S800000x320 S320x128 S800000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1

variable [Facts₀]

def dot_S800000x64_S64x1_S800000x1_1_0_0_1_n_n : DotDims S800000x64 S64x1 S800000x1 where
  lhsContracting := [1]
  rhsContracting := [0]
  lhsNonContracting := [0]
  rhsNonContracting := [1]
  lhsBatch := []
  rhsBatch := []
  wf := dot_S800000x64_S64x1_S800000x1_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x320_S320x128_S800000x128_1_0_0_1_n_n : DotDims S800000x320 S320x128 S800000x128 where
  lhsContracting := [1]
  rhsContracting := [0]
  lhsNonContracting := [0]
  rhsNonContracting := [1]
  lhsBatch := []
  rhsBatch := []
  wf := dot_S800000x320_S320x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.LibDense.lean ====
/-
  A matrix product whose one contracted axis is the left operand's columns and the right operand's rows, accumulated
  into the zero matrix and read at an entry: the entry `(p, j)` is the sum over `k` of `lhs (p, k) * rhs (k, j)`, for
  any extents and any dimension record that lists the axes in that way (no batch axis, rows of the left and columns of
  the right kept). Then the same facts about a whole matrix seen BY ITS ROWS — a product, a bias row added to every row, a
  change of float format, a rectifier — each as an equation between functions of the row number, so that a chain of dense
  layers is rewritten from the inside out with no binder in the way. Last, the pointwise transcendentals a gated cell
  uses, read at an index.
-/
import Idealize.ShloMosaic.Lib.Pipeline.Value
import Idealize.ShloMosaic.Lib.ValueIdx
import Idealize.ShloMosaic.Lib.ValueLayout
import Idealize.ShloMosaic.PureOps.Ideal.Laws

namespace Cert.LibDense

open Idealize.ShloMosaic Idealize.ShloMosaic.ValueIdx

/-- The product of an `[M, K]` and a `[K, N]` matrix into the zero accumulator, at `(p, j)`: the sum over the shared
    axis of the products of row `p` of the left with column `j` of the right. -/
theorem matmul2d_apply {M K N : ℕ} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision)
    (lhs : FVec Ideal ⟨2, ![M, K]⟩ φ₁) (rhs : FVec Ideal ⟨2, ![K, N]⟩ φ₂) (p : Fin M) (j : Fin N) :
    matmul D prec lhs rhs (constant ⟨2, ![M, N]⟩ .f32 0x00000000#32) (ix2 p j)
      = ∑ k : Fin K, lhs (ix2 p k) * rhs (ix2 k j) := by
  obtain ⟨lc, rc, ln, rn, lb, rb, wf⟩ := D
  dsimp only at hlc hrc hln hrn hlb hrb
  subst hlc hrc hln hrn hlb hrb
  set D : DotDims ⟨2, ![M, K]⟩ ⟨2, ![K, N]⟩ ⟨2, ![M, N]⟩ := ⟨[1], [0], [0], [1], [], [], wf⟩ with hD
  simp only [matmul]
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p j) ((contrEquiv1 D K rfl rfl).symm k) = ix2 p k := funext fun a => Fin.ext (by
    match a with
    | ⟨0, _⟩ =>
      show (D.lhsIdx (ix2 p j) _ 0).val = p.val
      unfold DotDims.lhsIdx
      rw [dif_neg (show ¬(0 : Fin (⟨2, ![M, K]⟩ : Shape).rank) ∈ D.lhsBatch from List.not_mem_nil),
        dif_pos (show (0 : Fin (⟨2, ![M, K]⟩ : Shape).rank) ∈ D.lhsNonContracting from List.mem_singleton.mpr rfl)]
      rfl
    | ⟨1, _⟩ => exact (D.lhsIdx_val_of_single rfl (ix2 p j) _).trans hk)
  have er : D.rhsIdx (ix2 p j) ((contrEquiv1 D K rfl rfl).symm k) = ix2 k j := funext fun a => Fin.ext (by
    match a with
    | ⟨0, _⟩ => exact (D.rhsIdx_val_of_single rfl (ix2 p j) _).trans hk
    | ⟨1, _⟩ =>
      show (D.rhsIdx (ix2 p j) _ 1).val = j.val
      unfold DotDims.rhsIdx
      rw [dif_neg (show ¬(1 : Fin (⟨2, ![K, N]⟩ : Shape).rank) ∈ D.rhsBatch from List.not_mem_nil),
        dif_pos (show (1 : Fin (⟨2, ![K, N]⟩ : Shape).rank) ∈ D.rhsNonContracting from List.mem_singleton.mpr rfl)]
      rfl)
  rw [el, er]

/-! ## A matrix by its rows -/

/-- Row `p` of a matrix, as a function of the column. -/
def rows {M N : ℕ} {α : Type} (A : (⟨2, ![M, N]⟩ : Shape).Idx → α) (p : Fin M) (j : Fin N) : α := A (ix2 p j)

/-- A `[K, J]` array read as weights from input `k` to output `j`: the array holds the weights transposed. -/
def matT {K J : ℕ} (W : (⟨2, ![K, J]⟩ : Shape).Idx → EReal) (j : Fin J) (k : Fin K) : EReal := W (ix2 k j)

/-- A `[1, J]` array read as the bias of output `j`. -/
def rowv {J : ℕ} (B : (⟨2, ![1, J]⟩ : Shape).Idx → EReal) (j : Fin J) : EReal := B (ix2 (0 : Fin 1) j)

section Rows
variable {M K N : ℕ} {φ φ₁ φ₂ : FTy}

/-- A cast of a matrix to its own shape has the same rows. -/
theorem rows_shapeCast_self {α : Type} (A : (⟨2, ![M, N]⟩ : Shape).Idx → α)
    (h : (⟨2, ![M, N]⟩ : Shape).ShapeCasts ⟨2, ![M, N]⟩) : rows (shapeCast ⟨2, ![M, N]⟩ A h) = rows A := by
  rw [shapeCast_self]

/-- A change of float format keeps every entry. -/
theorem rows_truncf {ψ : FTy} (A : FVec Ideal ⟨2, ![M, N]⟩ φ) (h : ψ.bits < φ.bits) :
    rows (truncf ψ A h : FVec Ideal ⟨2, ![M, N]⟩ ψ) = rows A := rfl

/-- The entrywise maximum with a constant. -/
theorem rows_maximumf_splat (A : FVec Ideal ⟨2, ![M, N]⟩ φ) (z : Ideal φ) :
    rows (maximumf A (broadcast ⟨2, ![M, N]⟩ z)) = fun p j => max (rows A p j) z := rfl

/-- The rows of a product into the zero accumulator: row `p` is the weighted sum of the right operand's rows. -/
theorem rows_matmul (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (lhs : FVec Ideal ⟨2, ![M, K]⟩ φ₁) (rhs : FVec Ideal ⟨2, ![K, N]⟩ φ₂) :
    rows (matmul D prec lhs rhs (constant ⟨2, ![M, N]⟩ .f32 0x00000000#32))
      = fun p j => ∑ k : Fin K, rows lhs p k * rows rhs k j :=
  funext fun p => funext fun j => matmul2d_apply D hlc hrc hln hrn hlb hrb prec lhs rhs p j

/-- One row added to every row. -/
theorem rows_addf_rowBias (A : FVec Ideal ⟨2, ![M, N]⟩ φ) (b : FVec Ideal ⟨2, ![1, N]⟩ φ)
    (hb : (⟨2, ![1, N]⟩ : Shape).Broadcasts ⟨2, ![M, N]⟩) :
    rows (addf A (broadcastTo ⟨2, ![M, N]⟩ b hb)) = fun p j => rows A p j + rows b (0 : Fin 1) j := by
  funext p j
  show A (ix2 p j) + broadcastTo ⟨2, ![M, N]⟩ b hb (ix2 p j) = _
  rw [broadcastTo_1b_ab_apply]
  rfl

end Rows

/-! ## Pointwise transcendentals at an index -/

variable {s : Shape} {φ : FTy}

theorem logistic_apply (x : FVec Ideal s φ) (i : s.Idx) : logistic x i = Ideal.logistic (x i) := rfl
theorem tanh_apply (x : FVec Ideal s φ) (i : s.Idx) : tanh x i = Ideal.tanh (x i) := rfl
theorem exp_apply (x : FVec Ideal s φ) (i : s.Idx) : exp x i = Ideal.exp (x i) := rfl
theorem log1p_apply (x : FVec Ideal s φ) (i : s.Idx) : log1p x i = Ideal.log1p (x i) := rfl
theorem absf_apply (x : FVec Ideal s φ) (i : s.Idx) : absf x i = max (x i) (-(x i)) := rfl

end Cert.LibDense
-- ==== Proof.LibColumn.lean ====
/-
  Layout operations on a COLUMN, read at an index: a vector `[a]` viewed as a one-column matrix `[a, 1]`, a
  one-column matrix broadcast along its rows to `[a, b]`, and a `[1, 1, a]` array viewed as one row `[1, a]`.
  (The row forms — `[1, b] → [a, b]`, a leading unit axis added or dropped — are in the library; these are their
  column counterparts, which every row reduction that keeps its axis meets.) Also: the comparison of two row
  indices below `2^32`, as 32-bit words, is the comparison of the indices.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a]` array cast to `[1, a]` reads, at `(u, i)`, the operand at `(0, 0, i)`. -/
theorem shapeCast_11a_1a_apply {a : ℕ} (x : (⟨3, ![1, 1, a]⟩ : Shape).Idx → α) (h : (⟨3, ![1, 1, a]⟩ : Shape).ShapeCasts ⟨2, ![1, a]⟩)
    (u : Fin 1) (i : Fin a) : shapeCast ⟨2, ![1, a]⟩ x h (ix2 u i) = x (ix3 (0 : Fin 1) (0 : Fin 1) i) :=
  shapeCast_apply x h _ _ (by
    have hu : u.val = 0 := by omega
    rw [Shape.rowMajor_val_three, Shape.rowMajor_val_two]
    show (0 * 1 + 0) * a + i.val = u.val * a + i.val
    rw [hu])

/-- Two indices below `2^32` are equal exactly when their 32-bit words are: the word of the comparison is `1` on
    the diagonal and `0` off it. -/
theorem cmpi_eq_ofNat {n : ℕ} (hn : n ≤ 2 ^ 32) (l k : Fin n) :
    IntOp.cmpi .eq (BitVec.ofNat 32 l.val) (BitVec.ofNat 32 k.val) = if l = k then 1#1 else 0#1 := by
  have hl : l.val < 2 ^ 32 := lt_of_lt_of_le l.isLt hn
  have hk : k.val < 2 ^ 32 := lt_of_lt_of_le k.isLt hn
  have hiff : BitVec.ofNat 32 l.val = BitVec.ofNat 32 k.val ↔ l = k := by
    constructor
    · intro h
      have h' := congrArg BitVec.toNat h
      rw [BitVec.toNat_ofNat, BitVec.toNat_ofNat, Nat.mod_eq_of_lt hl, Nat.mod_eq_of_lt hk] at h'
      exact Fin.ext h'
    · rintro rfl; rfl
  unfold IntOp.cmpi
  by_cases h : l = k
  · subst h; simp
  · have hne : ¬ BitVec.ofNat 32 l.val = BitVec.ofNat 32 k.val := fun e => h (hiff.mp e)
    have hb : (BitVec.ofNat 32 l.val == BitVec.ofNat 32 k.val) = false := beq_eq_false_iff_ne.mpr hne
    rw [if_neg h]
    show BitVec.ofBool (BitVec.ofNat 32 l.val == BitVec.ofNat 32 k.val) = 0#1
    rw [hb]
    rfl

end Cert.LibColumn
-- ==== Proof.LibKeepdims.lean ====
/-
  Reductions over one axis of a rank-2 or rank-3 array, and the layout operations that put the reduced axis back as a
  unit axis and spread it again, read at an index written by coordinates, for any extents. A sum over an axis is the
  `Fin`-indexed sum over that axis's coordinates; a maximum is the fold of `max` over them from the accumulator's
  value.
-/
import Idealize.ShloMosaic.Lib.Pipeline.Value
import Idealize.ShloMosaic.Lib.ValueIdx
import Idealize.ShloMosaic.Lib.ValueLayout
import Idealize.ShloMosaic.PureOps.Ideal.Laws

namespace Cert.LibKeepdims

open Idealize.ShloMosaic Idealize.ShloMosaic.ValueIdx

variable {α : Type}

/-! ## Layout -/

/-- An `[a, c]` array cast to `[a, 1, c]` reads, at `(p, u, k)`, the operand at `(p, k)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_two, Shape.rowMajor_val_three]
    show p.val * c + k.val = (p.val * 1 + u.val) * c + k.val
    rw [hu, Nat.mul_one, Nat.add_zero])

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- An `[a, 1, c]` array broadcast to `[a, b, c]` reads, at `(p, q, k)`, the operand at `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- An `[a, b, 1]` array broadcast to `[a, b, c]` reads, at `(p, q, k)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-! ## The reduced index with the coordinate put back -/

theorem lift_mid3 {a b c : ℕ} (h : (⟨3, ![a, b, c]⟩ : Shape).Reduces [1] (⟨2, ![a, c]⟩ : Shape)) (p : Fin a) (k : Fin c)
    (q : Fin ((⟨3, ![a, b, c]⟩ : Shape).size 1)) : h.lift (ix2 p k) q = ix3 p (⟨q.val, q.isLt⟩ : Fin b) k := by
  funext ax; apply Fin.ext
  fin_cases ax <;> rfl

theorem lift_last3 {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext ax; apply Fin.ext
  fin_cases ax <;> rfl

theorem lift_last2 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext ax; apply Fin.ext
  fin_cases ax <;> rfl

/-! ## Sums and maxima over one axis, at the ideal values -/

variable {φ : FTy}

/-- The sum over the middle axis of an `[a, b, c]` array, at `(p, k)`: the sum over `q` of the entries `(p, q, k)`. -/
theorem sum_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.add.neutral φ hφ)
    (p : Fin a) (k : Fin c) :
    multiReduction .add [1] ⟨2, ![a, c]⟩ src acc h hφ hacc (ix2 p k) = ∑ q : Fin b, src (ix3 p q k) :=
  (Ideal.multiReduction_add_single src acc h hφ hacc (ix2 p k)).trans
    (Finset.sum_congr rfl fun q _ => congrArg src (lift_mid3 h p k q))

/-- The sum over the last axis of an `[a, b, c]` array, at `(p, q)`: the sum over `k` of the entries `(p, q, k)`. -/
theorem sum_last3_apply {a b c : ℕ} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) :=
  (Ideal.multiReduction_add_single src acc h hφ hacc (ix2 p q)).trans
    (Finset.sum_congr rfl fun k _ => congrArg src (lift_last3 h p q k))

/-- The sum over the last axis of an `[a, b]` array, at `p`: the sum over `k` of the entries `(p, k)`. -/
theorem sum_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_last2 h p k))

/-- The maximum over the middle axis of an `[a, b, c]` array, at `(p, k)`: the fold of `max`, from the accumulator's
    value, over the entries `(p, q, k)`. -/
theorem max_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.maximumf.neutral φ hφ)
    (p : Fin a) (k : Fin c) :
    multiReduction .maximumf [1] ⟨2, ![a, c]⟩ src acc h hφ hacc (ix2 p k)
      = (Finset.univ : Finset (Fin b)).fold max (Ideal.ofBits φ acc) (fun q : Fin b => src (ix3 p q k)) := by
  refine (Ideal.multiReduction_maximumf_single src acc h hφ hacc (ix2 p k)).trans ?_
  have hf : (src ∘ h.lift (ix2 p k)) = fun q : Fin b => src (ix3 p q k) := funext fun q => congrArg src (lift_mid3 h p k q)
  exact congrArg (fun f => Finset.fold max (Ideal.ofBits φ acc) f (Finset.univ : Finset (Fin b))) hf

/-- The maximum over the last axis of an `[a, b]` array, at `p`: the fold of `max`, from the accumulator's value, over
    the entries `(p, k)`. -/
theorem max_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k : Fin b => src (ix2 p k)) := by
  refine (Ideal.multiReduction_maximumf_single src acc h hφ hacc (ix1 p)).trans ?_
  have hf : (src ∘ h.lift (ix1 p)) = fun k : Fin b => src (ix2 p k) := funext fun k => congrArg src (lift_last2 h p k)
  exact congrArg (fun f => Finset.fold max (Ideal.ofBits φ acc) f (Finset.univ : Finset (Fin b))) hf

/-! ## The pointwise transcendentals at an index -/

theorem exp_apply {s : Shape} (x : FVec Ideal s φ) (i : s.Idx) : exp x i = Ideal.exp (x i) := rfl
theorem log_apply {s : Shape} (x : FVec Ideal s φ) (i : s.Idx) : log x i = Ideal.log (x i) := rfl

end Cert.LibKeepdims
-- ==== Proof.Message.lean ====
/-
  One edge's message in a graph convolution, as a function of the arrays it is computed from. For edge `e` with endpoint
  feature rows `hr e`, `hc e` (128 entries each) and bond features `bond e` (64 entries):

    hidden e k = max (Σ_a hr e a · A a k + Σ_a hc e a · B a k + Σ_b bond e b · C b k + b1 k, 0)
    gate e     = logistic (Σ_b bond e b · wa b + ba)
    msg e j    = (Σ_k hidden e k · W2 k j + b2 j) · gate e

  The three weight blocks A, B, C are the row bands 0–127, 128–255, 256–319 of one 320-row matrix, so the three inner
  sums together are the one sum over 320 of the row (hr e, hc e, bond e) laid side by side against that matrix
  (`sum_three_bands`): only associativity of addition on the extended reals is used, no finiteness. A band of rows of
  the edge arrays gives the same band of messages (`msg_rows`): a message depends on its own edge's rows only.
-/
import Idealize.ShloMosaic.Lib.ValueIdx
import Idealize.ShloMosaic.PureOps.Ideal.Laws

noncomputable section

namespace Cert.Message

open Idealize.ShloMosaic Idealize.ShloMosaic.ValueIdx

/-- The rectified first layer at edge `e`, output `k`. -/
def hidden {E : ℕ} (hr hc : (⟨2, ![E, 128]⟩ : Shape).Idx → EReal) (bond : (⟨2, ![E, 64]⟩ : Shape).Idx → EReal)
    (A B : (⟨2, ![128, 128]⟩ : Shape).Idx → EReal) (C : (⟨2, ![64, 128]⟩ : Shape).Idx → EReal)
    (b1 : (⟨2, ![1, 128]⟩ : Shape).Idx → EReal) (e : Fin E) (k : Fin 128) : EReal :=
  max ((((∑ a : Fin 128, hr (ix2 e a) * A (ix2 a k)) + ∑ a : Fin 128, hc (ix2 e a) * B (ix2 a k))
      + ∑ b : Fin 64, bond (ix2 e b) * C (ix2 b k)) + b1 (ix2 (0 : Fin 1) k)) (Ideal.ofBits .f32 0x00000000#32)

/-- The gate of edge `e`: the logistic function of the bond features against one weight row, plus a bias. -/
def gate {E : ℕ} (bond : (⟨2, ![E, 64]⟩ : Shape).Idx → EReal) (wa : (⟨2, ![1, 64]⟩ : Shape).Idx → EReal)
    (ba : (⟨2, ![1, 1]⟩ : Shape).Idx → EReal) (e : Fin E) : EReal :=
  Ideal.logistic ((∑ b : Fin 64, bond (ix2 e b) * wa (ix2 (0 : Fin 1) b)) + ba (ix2 (0 : Fin 1) (0 : Fin 1)))

/-- The message of edge `e` at feature `j`. -/
def msgAt {E : ℕ} (hr hc : (⟨2, ![E, 128]⟩ : Shape).Idx → EReal) (bond : (⟨2, ![E, 64]⟩ : Shape).Idx → EReal)
    (A B : (⟨2, ![128, 128]⟩ : Shape).Idx → EReal) (C : (⟨2, ![64, 128]⟩ : Shape).Idx → EReal)
    (b1 : (⟨2, ![1, 128]⟩ : Shape).Idx → EReal) (W2 : (⟨2, ![128, 128]⟩ : Shape).Idx → EReal)
    (b2 : (⟨2, ![1, 128]⟩ : Shape).Idx → EReal) (wa : (⟨2, ![1, 64]⟩ : Shape).Idx → EReal)
    (ba : (⟨2, ![1, 1]⟩ : Shape).Idx → EReal) (e : Fin E) (j : Fin 128) : EReal :=
  ((∑ k : Fin 128, hidden hr hc bond A B C b1 e k * W2 (ix2 k j)) + b2 (ix2 (0 : Fin 1) j)) * gate bond wa ba e

/-- All messages, as one `[E, 128]` array. -/
def msg {E : ℕ} (hr hc : (⟨2, ![E, 128]⟩ : Shape).Idx → EReal) (bond : (⟨2, ![E, 64]⟩ : Shape).Idx → EReal)
    (A B : (⟨2, ![128, 128]⟩ : Shape).Idx → EReal) (C : (⟨2, ![64, 128]⟩ : Shape).Idx → EReal)
    (b1 : (⟨2, ![1, 128]⟩ : Shape).Idx → EReal) (W2 : (⟨2, ![128, 128]⟩ : Shape).Idx → EReal)
    (b2 : (⟨2, ![1, 128]⟩ : Shape).Idx → EReal) (wa : (⟨2, ![1, 64]⟩ : Shape).Idx → EReal)
    (ba : (⟨2, ![1, 1]⟩ : Shape).Idx → EReal) : (⟨2, ![E, 128]⟩ : Shape).Idx → EReal :=
  fun i => msgAt (E := E) hr hc bond A B C b1 W2 b2 wa ba (i 0) (i 1)

theorem msg_apply {E : ℕ} (hr hc : (⟨2, ![E, 128]⟩ : Shape).Idx → EReal) (bond : (⟨2, ![E, 64]⟩ : Shape).Idx → EReal)
    (A B : (⟨2, ![128, 128]⟩ : Shape).Idx → EReal) (C : (⟨2, ![64, 128]⟩ : Shape).Idx → EReal)
    (b1 : (⟨2, ![1, 128]⟩ : Shape).Idx → EReal) (W2 : (⟨2, ![128, 128]⟩ : Shape).Idx → EReal)
    (b2 : (⟨2, ![1, 128]⟩ : Shape).Idx → EReal) (wa : (⟨2, ![1, 64]⟩ : Shape).Idx → EReal)
    (ba : (⟨2, ![1, 1]⟩ : Shape).Idx → EReal) (e : Fin E) (j : Fin 128) :
    msg hr hc bond A B C b1 W2 b2 wa ba (ix2 e j) = msgAt hr hc bond A B C b1 W2 b2 wa ba e j := rfl

/-- A message depends on its own edge's rows only: if `hr`, `hc`, `bond` hold rows `r … r + T − 1` of `HR`, `HC`,
    `BOND`, the message at row `p` of the band is the message at row `r + p` of the whole. -/
theorem msgAt_rows {E T : ℕ} (HR HC : (⟨2, ![E, 128]⟩ : Shape).Idx → EReal) (BOND : (⟨2, ![E, 64]⟩ : Shape).Idx → EReal)
    (hr hc : (⟨2, ![T, 128]⟩ : Shape).Idx → EReal) (bond : (⟨2, ![T, 64]⟩ : Shape).Idx → EReal)
    (A B : (⟨2, ![128, 128]⟩ : Shape).Idx → EReal) (C : (⟨2, ![64, 128]⟩ : Shape).Idx → EReal)
    (b1 : (⟨2, ![1, 128]⟩ : Shape).Idx → EReal) (W2 : (⟨2, ![128, 128]⟩ : Shape).Idx → EReal)
    (b2 : (⟨2, ![1, 128]⟩ : Shape).Idx → EReal) (wa : (⟨2, ![1, 64]⟩ : Shape).Idx → EReal)
    (ba : (⟨2, ![1, 1]⟩ : Shape).Idx → EReal) (p : Fin T) (p' : Fin E)
    (hhr : ∀ a : Fin 128, hr (ix2 p a) = HR (ix2 p' a)) (hhc : ∀ a : Fin 128, hc (ix2 p a) = HC (ix2 p' a))
    (hbond : ∀ b : Fin 64, bond (ix2 p b) = BOND (ix2 p' b)) (j : Fin 128) :
    msgAt hr hc bond A B C b1 W2 b2 wa ba p j = msgAt HR HC BOND A B C b1 W2 b2 wa ba p' j := by
  have hh : ∀ k : Fin 128, hidden hr hc bond A B C b1 p k = hidden HR HC BOND A B C b1 p' k := fun k => by
    unfold hidden
    simp only [hhr, hhc, hbond]
  have hg : gate bond wa ba p = gate BOND wa ba p' := by
    unfold gate
    simp only [hbond]
  unfold msgAt
  simp only [hh, hg]

/-- A sum over 320 terms is the sum of its three bands of 128, 128 and 64 terms. -/
theorem sum_three_bands (f : Fin 320 → EReal) :
    ∑ k : Fin 320, f k
      = ((∑ a : Fin 128, f ⟨a.val, by omega⟩) + ∑ a : Fin 128, f ⟨128 + a.val, by omega⟩)
        + ∑ b : Fin 64, f ⟨256 + b.val, by omega⟩ := by
  have h1 := Fin.sum_univ_add (M := EReal) (a := 256) (b := 64) f
  have h2 := Fin.sum_univ_add (M := EReal) (a := 128) (b := 128) (fun i : Fin (128 + 128) => f (Fin.castAdd 64 i))
  exact h1.trans (congrArg (· + ∑ b : Fin 64, f (Fin.natAdd 256 b)) h2)

end Cert.Message

end
-- ==== Proof.Payload.lean ====
/-
  What one grid step of the vector-unit program stores, read at an entry: the body's arithmetic on a band of 6400 edges
  is the message function of `Message` on that band. The first layer is three matrix products into zero accumulators
  added up, plus a bias row; the second layer one product plus a bias row; the gate a lane sum of bond features times
  one weight row, kept as a column and spread over the 128 features. Changes of float format keep every entry.
-/
import proofs.«172277_j35914516529888_2_alg».proof.Proof.Gen.KernelIdeal.Skeleton
import proofs.«172277_j35914516529888_2_alg».proof.Proof.LibDense
import proofs.«172277_j35914516529888_2_alg».proof.Proof.LibColumn
import proofs.«172277_j35914516529888_2_alg».proof.Proof.LibKeepdims
import proofs.«172277_j35914516529888_2_alg».proof.Proof.Message

noncomputable section

namespace Cert.KernelIdeal.Payload

open Cert.KernelIdeal Cert.KernelIdeal.Gen Idealize.ShloMosaic Idealize.ShloMosaic.ValueIdx

/-- The second layer's output before gating, at edge `p` of the band and feature `j`. -/
theorem layers_apply (x0 x1 : Vec Ideal S6400x128 .bf16) (x2 : Vec Ideal S6400x64 .f32) (x3 x4 : Vec Ideal S128x128 .bf16)
    (x5 : Vec Ideal S64x128 .bf16) (x6 : Vec Ideal S1x128 .f32) (x7 : Vec Ideal S128x128 .bf16) (x8 : Vec Ideal S1x128 .f32)
    (p : Fin 6400) (j : Fin 128) :
    k0_pay2 (F := Ideal) x0 x1 x2 x3 x4 x5 x6 x7 x8 (ix2 p j)
      = (∑ k : Fin 128, Message.hidden (E := 6400) x0 x1 x2 x3 x4 x5 x6 p k * x7 (ix2 k j)) + x8 (ix2 (0 : Fin 1) j) := by
  unfold k0_pay2
  simp only [shapeCast_self]
  rw [addf_apply, LibDense.matmul2d_apply _ rfl rfl rfl rfl rfl rfl, broadcastTo_1b_ab_apply]
  refine congrArg (· + x8 (ix2 (0 : Fin 1) j)) (Finset.sum_congr rfl fun k _ => ?_)
  refine congrArg (· * x7 (ix2 k j)) ?_
  rw [truncf_apply, maximumf_apply, addf_apply, addf_apply, addf_apply,
    LibDense.matmul2d_apply _ rfl rfl rfl rfl rfl rfl, LibDense.matmul2d_apply _ rfl rfl rfl rfl rfl rfl,
    LibDense.matmul2d_apply _ rfl rfl rfl rfl rfl rfl, broadcastTo_1b_ab_apply]
  rfl

/-- The stored value at edge `p` of the band and feature `j`: the second layer's output times the edge's gate. -/
theorem gated_apply (x2 : Vec Ideal S6400x64 .f32) (v30 : FVec Ideal S6400x128 .f32) (x9 : Vec Ideal S1x64 .f32)
    (x10 : Vec Ideal S1x1 .f32) (p : Fin 6400) (j : Fin 128) :
    k0_pay1 (F := Ideal) x2 v30 (k0_pay3 x9) x10 (ix2 p j) = v30 (ix2 p j) * Message.gate (E := 6400) x2 x9 x10 p := by
  unfold k0_pay1 k0_pay3
  dsimp only
  simp only [shapeCast_self]
  rw [truncf_apply, mulf_apply, LibColumn.broadcastTo_a1_ab_apply, LibDense.logistic_apply, addf_apply,
    LibColumn.shapeCast_a_a1_apply]
  unfold Message.gate
  refine congrArg (fun s => v30 (ix2 p j) * Ideal.logistic s) ?_
  refine congrArg₂ (· + ·) ?_ (broadcastTo_1b_ab_apply _ _ p (0 : Fin 1))
  refine (LibKeepdims.sum_last2_apply _ _ _ _ _ p).trans ?_
  refine Finset.sum_congr rfl fun b _ => ?_
  rw [mulf_apply, broadcastTo_1b_ab_apply]

/-- One grid step's stored block is the message function of the step's input blocks. -/
theorem body_eq (x0 x1 : Vec Ideal S6400x128 .bf16) (x2 : Vec Ideal S6400x64 .f32) (x3 x4 : Vec Ideal S128x128 .bf16)
    (x5 : Vec Ideal S64x128 .bf16) (x6 : Vec Ideal S1x128 .f32) (x7 : Vec Ideal S128x128 .bf16) (x8 : Vec Ideal S1x128 .f32)
    (x9 : Vec Ideal S1x64 .f32) (x10 : Vec Ideal S1x1 .f32) :
    k0_pay1 (F := Ideal) x2 (k0_pay2 x0 x1 x2 x3 x4 x5 x6 x7 x8) (k0_pay3 x9) x10
      = Message.msg (E := 6400) x0 x1 x2 x3 x4 x5 x6 x7 x8 x9 x10 := by
  funext i
  obtain ⟨p, j, rfl⟩ : ∃ (p : Fin 6400) (j : Fin 128), i = ix2 p j := ⟨i 0, i 1, eq_ix2 i⟩
  rw [gated_apply, layers_apply, Message.msg_apply]
  rfl

end Cert.KernelIdeal.Payload

end
-- ==== Proof.Region.lean ====
/-
  The messages array the vector-unit program leaves in memory. The edges are cut into 125 bands of 6400; grid step `t`
  reads band `t` of the two gathered feature arrays and of the bond features, and the weight arrays whole, and writes
  band `t` of the output. Since a message depends on its own edge's rows only, what step `t` writes is band `t` of the
  message function of the WHOLE arrays; the 125 bands tile the output, so the output array ends as that function.
-/
import proofs.«172277_j35914516529888_2_alg».proof.Proof.Gen.KernelIdeal.Frame
import proofs.«172277_j35914516529888_2_alg».proof.Proof.Payload
import Idealize.ShloMosaic.Lib.Pipeline.Value

set_option maxRecDepth 16384

noncomputable section

namespace Cert.KernelIdeal.Region

open Cert.KernelIdeal Cert.KernelIdeal.Gen Idealize.ShloMosaic Idealize.ShloMosaic.TcCoe Idealize.SL.Sem
open Idealize.ShloMosaic.ValueIdx Idealize.ShloMosaic.Pipeline

variable (m : (ℓ : Loc nD τ sig) → Buf (Elt Ideal) ℓ) (ρ : Dev nD → PrngReg)

theorem zero_offsets : (![0, 0] : Fin 2 → Nat) = fun _ => 0 := funext fun a => by fin_cases a <;> rfl

/-- The messages of all 800000 edges, from the arrays as the region finds them. -/
abbrev messages (c : Dev nD) : S800000x128.Idx → EReal :=
  Message.msg (E := 800000) (V m c main_v11) (V m c main_v18) (V m c main_arg2) (V m c main_v20) (V m c main_v22)
    (V m c main_v24) (V m c main_v26) (V m c main_v25) (V m c main_v27) (V m c main_v28) (V m c main_v29)

/-- The block indices over the grid: step `t` takes band `t` of the three edge arrays and of the output, and the one
    block of every weight array. -/
theorem band_of_step : ∀ t : Fin cfg0.N,
    win0_0.index t (0 : Fin 2) = win0_11.index t (0 : Fin 2) ∧ win0_0.index t (1 : Fin 2) = 0
    ∧ win0_1.index t (0 : Fin 2) = win0_11.index t (0 : Fin 2) ∧ win0_1.index t (1 : Fin 2) = 0
    ∧ win0_2.index t (0 : Fin 2) = win0_11.index t (0 : Fin 2) ∧ win0_2.index t (1 : Fin 2) = 0
    ∧ win0_11.index t (1 : Fin 2) = 0 ∧ win0_11.index t (0 : Fin 2) ≤ 124 :=
  (by decide +kernel : ∀ t : Fin grid0.N, _)

theorem whole_of_step : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

/-- Every band is some step's. -/
theorem step_of_band : ∀ q : Fin 125, ∃ t : Fin cfg0.N, win0_11.index t = ![q.val, 0] :=
  (by decide +kernel : ∀ q : Fin 125, ∃ t : Fin grid0.N, win0_11.index t = ![q.val, 0])

/-! ## The weight windows hold their arrays whole -/

theorem wblk3 (c : Dev nD) (t : Fin cfg0.N) : iblk m c 3 t = V m c main_v20 := by
  obtain ⟨⟨e0, e1⟩, -⟩ := whole_of_step t
  funext z
  show V m c main_v20 (((cfg0.win 3).blk t).view.emb z) = V m c main_v20 z
  refine congrArg _ (funext fun a => Fin.ext ?_)
  match a with
  | ⟨0, _⟩ => show win0_3.index t (0 : Fin 2) * 128 + 1 * (z 0).val = (z 0).val; omega
  | ⟨1, _⟩ => show win0_3.index t (1 : Fin 2) * 128 + 1 * (z 1).val = (z 1).val; omega

theorem wblk4 (c : Dev nD) (t : Fin cfg0.N) : iblk m c 4 t = V m c main_v22 := by
  obtain ⟨-, ⟨e0, e1⟩, -⟩ := whole_of_step t
  funext z
  show V m c main_v22 (((cfg0.win 4).blk t).view.emb z) = V m c main_v22 z
  refine congrArg _ (funext fun a => Fin.ext ?_)
  match a with
  | ⟨0, _⟩ => show win0_4.index t (0 : Fin 2) * 128 + 1 * (z 0).val = (z 0).val; omega
  | ⟨1, _⟩ => show win0_4.index t (1 : Fin 2) * 128 + 1 * (z 1).val = (z 1).val; omega

theorem wblk5 (c : Dev nD) (t : Fin cfg0.N) : iblk m c 5 t = V m c main_v24 := by
  obtain ⟨-, -, ⟨e0, e1⟩, -⟩ := whole_of_step t
  funext z
  show V m c main_v24 (((cfg0.win 5).blk t).view.emb z) = V m c main_v24 z
  refine congrArg _ (funext fun a => Fin.ext ?_)
  match a with
  | ⟨0, _⟩ => show win0_5.index t (0 : Fin 2) * 64 + 1 * (z 0).val = (z 0).val; omega
  | ⟨1, _⟩ => show win0_5.index t (1 : Fin 2) * 128 + 1 * (z 1).val = (z 1).val; omega

theorem wblk6 (c : Dev nD) (t : Fin cfg0.N) : iblk m c 6 t = V m c main_v26 := by
  obtain ⟨-, -, -, ⟨e0, e1⟩, -⟩ := whole_of_step t
  funext z
  show V m c main_v26 (((cfg0.win 6).blk t).view.emb z) = V m c main_v26 z
  refine congrArg _ (funext fun a => Fin.ext ?_)
  match a with
  | ⟨0, _⟩ => show win0_6.index t (0 : Fin 2) * 1 + 1 * (z 0).val = (z 0).val; omega
  | ⟨1, _⟩ => show win0_6.index t (1 : Fin 2) * 128 + 1 * (z 1).val = (z 1).val; omega

theorem wblk7 (c : Dev nD) (t : Fin cfg0.N) : iblk m c 7 t = V m c main_v25 := by
  obtain ⟨-, -, -, -, ⟨e0, e1⟩, -⟩ := whole_of_step t
  funext z
  show V m c main_v25 (((cfg0.win 7).blk t).view.emb z) = V m c main_v25 z
  refine congrArg _ (funext fun a => Fin.ext ?_)
  match a with
  | ⟨0, _⟩ => show win0_7.index t (0 : Fin 2) * 128 + 1 * (z 0).val = (z 0).val; omega
  | ⟨1, _⟩ => show win0_7.index t (1 : Fin 2) * 128 + 1 * (z 1).val = (z 1).val; omega

theorem wblk8 (c : Dev nD) (t : Fin cfg0.N) : iblk m c 8 t = V m c main_v27 := by
  obtain ⟨-, -, -, -, -, ⟨e0, e1⟩, -⟩ := whole_of_step t
  funext z
  show V m c main_v27 (((cfg0.win 8).blk t).view.emb z) = V m c main_v27 z
  refine congrArg _ (funext fun a => Fin.ext ?_)
  match a with
  | ⟨0, _⟩ => show win0_8.index t (0 : Fin 2) * 1 + 1 * (z 0).val = (z 0).val; omega
  | ⟨1, _⟩ => show win0_8.index t (1 : Fin 2) * 128 + 1 * (z 1).val = (z 1).val; omega

theorem wblk9 (c : Dev nD) (t : Fin cfg0.N) : iblk m c 9 t = V m c main_v28 := by
  obtain ⟨-, -, -, -, -, -, ⟨e0, e1⟩, -⟩ := whole_of_step t
  funext z
  show V m c main_v28 (((cfg0.win 9).blk t).view.emb z) = V m c main_v28 z
  refine congrArg _ (funext fun a => Fin.ext ?_)
  match a with
  | ⟨0, _⟩ => show win0_9.index t (0 : Fin 2) * 1 + 1 * (z 0).val = (z 0).val; omega
  | ⟨1, _⟩ => show win0_9.index t (1 : Fin 2) * 64 + 1 * (z 1).val = (z 1).val; omega

theorem wblk10 (c : Dev nD) (t : Fin cfg0.N) : iblk m c 10 t = V m c main_v29 := by
  obtain ⟨-, -, -, -, -, -, -, e0, e1⟩ := whole_of_step t
  funext z
  show V m c main_v29 (((cfg0.win 10).blk t).view.emb z) = V m c main_v29 z
  refine congrArg _ (funext fun a => Fin.ext ?_)
  match a with
  | ⟨0, _⟩ => show win0_10.index t (0 : Fin 2) * 1 + 1 * (z 0).val = (z 0).val; omega
  | ⟨1, _⟩ => show win0_10.index t (1 : Fin 2) * 1 + 1 * (z 1).val = (z 1).val; omega

/-! ## What a step writes back -/

/-- Step `t` writes back band `t` of the messages of the whole arrays. -/
theorem flushed_eq (c : Dev nD) (t : Fin cfg0.N) :
    (dats m 0 c).flushed 11 t = ((cfg0.win 11).blk t).view.read (Elt Ideal) (messages m c) := by
  show (cfg0.win 11).cut (grid0.coords t) ((dats m 0 c).after 11 t) = _
  rw [after0_11]
  unfold out0_11
  rw [View.canon_unit_zero zero_offsets]
  simp only [View.ld_unit_zero (S := S6400x128) zero_offsets, View.ld_unit_zero (S := S6400x64) zero_offsets,
    View.ld_unit_zero (S := S128x128) zero_offsets, View.ld_unit_zero (S := S64x128) zero_offsets,
    View.ld_unit_zero (S := S1x128) zero_offsets, View.ld_unit_zero (S := S1x64) zero_offsets,
    View.ld_unit_zero (S := S1x1) zero_offsets]
  rw [Payload.body_eq, wblk3, wblk4, wblk5, wblk6, wblk7, wblk8, wblk9, wblk10]
  obtain ⟨r0, r1, c0, c1, b0, b1, o1, -⟩ := band_of_step t
  funext y
  have hj : (((cfg0.win 11).blk t).view.emb y) 1 = y 1 := Fin.ext (by
    show win0_11.index t (1 : Fin 2) * 128 + 1 * (y 1).val = (y 1).val; omega)
  show Message.msgAt (E := 6400) (iblk m c 0 t) (iblk m c 1 t) (iblk m c 2 t) (V m c main_v20) (V m c main_v22)
      (V m c main_v24) (V m c main_v26) (V m c main_v25) (V m c main_v27) (V m c main_v28) (V m c main_v29) (y 0) (y 1)
    = Message.msgAt (E := 800000) (V m c main_v11) (V m c main_v18) (V m c main_arg2) (V m c main_v20) (V m c main_v22)
      (V m c main_v24) (V m c main_v26) (V m c main_v25) (V m c main_v27) (V m c main_v28) (V m c main_v29)
      ((((cfg0.win 11).blk t).view.emb y) 0) ((((cfg0.win 11).blk t).view.emb y) 1)
  rw [hj]
  refine Message.msgAt_rows _ _ _ _ _ _ _ _ _ _ _ _ _ _ (y 0) _ (fun a => ?_) (fun a => ?_) (fun b => ?_) (y 1)
  · show V m c main_v11 (((cfg0.win 0).blk t).view.emb (ix2 (y 0) a)) = V m c main_v11 (ix2 ((((cfg0.win 11).blk t).view.emb y) 0) a)
    refine congrArg _ (funext fun ax => Fin.ext ?_)
    match ax with
    | ⟨0, _⟩ => show win0_0.index t (0 : Fin 2) * 6400 + 1 * (y 0).val = win0_11.index t (0 : Fin 2) * 6400 + 1 * (y 0).val; omega
    | ⟨1, _⟩ => show win0_0.index t (1 : Fin 2) * 128 + 1 * a.val = a.val; omega
  · show V m c main_v18 (((cfg0.win 1).blk t).view.emb (ix2 (y 0) a)) = V m c main_v18 (ix2 ((((cfg0.win 11).blk t).view.emb y) 0) a)
    refine congrArg _ (funext fun ax => Fin.ext ?_)
    match ax with
    | ⟨0, _⟩ => show win0_1.index t (0 : Fin 2) * 6400 + 1 * (y 0).val = win0_11.index t (0 : Fin 2) * 6400 + 1 * (y 0).val; omega
    | ⟨1, _⟩ => show win0_1.index t (1 : Fin 2) * 128 + 1 * a.val = a.val; omega
  · show V m c main_arg2 (((cfg0.win 2).blk t).view.emb (ix2 (y 0) b)) = V m c main_arg2 (ix2 ((((cfg0.win 11).blk t).view.emb y) 0) b)
    refine congrArg _ (funext fun ax => Fin.ext ?_)
    match ax with
    | ⟨0, _⟩ => show win0_2.index t (0 : Fin 2) * 6400 + 1 * (y 0).val = win0_11.index t (0 : Fin 2) * 6400 + 1 * (y 0).val; omega
    | ⟨1, _⟩ => show win0_2.index t (1 : Fin 2) * 64 + 1 * b.val = b.val; omega

/-! ## The bands tile the output -/

theorem mem_band (t : Fin cfg0.N) (i : S800000x128.Idx) :
    i ∈ ((cfg0.win 11).blk t).view.set ↔ ∀ a : Fin 2, win0_11.index t a * S6400x128.size a ≤ (i a).val
      ∧ (i a).val < win0_11.index t a * S6400x128.size a + S6400x128.size a := by
  show i ∈ ((View.whole main_v30).slice (win0_11.rect t)).set ↔ _
  rw [View.set_slice_whole, Rect.mem_set_unit]
  exact Iff.rfl

theorem covered (i : S800000x128.Idx) :
    ∃ t : Fin cfg0.N, (cfg0.win 11).flush t = true ∧ i ∈ ((cfg0.win 11).blk t).view.set := by
  have hi0 : (i 0).val < 800000 := (i 0).isLt
  have hi1 : (i 1).val < 128 := (i 1).isLt
  obtain ⟨t, ht⟩ := step_of_band ⟨(i 0).val / 6400, by omega⟩
  have q0 : win0_11.index t (0 : Fin 2) = (i 0).val / 6400 := congrFun ht 0
  have q1 : win0_11.index t (1 : Fin 2) = 0 := congrFun ht 1
  refine ⟨t, flush0_11 t, ?_⟩
  rw [mem_band]
  intro a
  match a with
  | ⟨0, _⟩ => show win0_11.index t (0 : Fin 2) * 6400 ≤ (i 0).val ∧ (i 0).val < win0_11.index t (0 : Fin 2) * 6400 + 6400; omega
  | ⟨1, _⟩ => show win0_11.index t (1 : Fin 2) * 128 ≤ (i 1).val ∧ (i 1).val < win0_11.index t (1 : Fin 2) * 128 + 128; omega

/-- The output array after the region: the messages of all edges. -/
theorem final (c : Dev nD) : (dats m 0 c).arrAt 11 cfg0.N = messages m c :=
  (dats m 0 c).arrAt_eq_of_cover 11 (messages m c) (fun t _ => flushed_eq m c t) (covered)

end Cert.KernelIdeal.Region

end
-- ==== Proof.HostSide.lean ====
/-
  The host lines around the region of the vector-unit program, as functions of the program's arguments: the row and
  column endpoint indices cut out of the edge list, their wrap-around for negative values, the two gathers of node
  features, the three row bands of the first weight matrix, the biases and the gate weights re-laid as rows; and after
  the region the scatter-add of the messages into the nodes by row endpoint, added to the node features.
-/
import proofs.«172277_j35914516529888_2_alg».proof.Proof.Gen.KernelIdeal.Frame
import proofs.«172277_j35914516529888_2_alg».proof.Proof.Region
import Idealize.ShloMosaic.Lib.StableHlo.Run

set_option maxRecDepth 16384

noncomputable section

namespace Cert.KernelIdeal.HostSide

open Cert.KernelIdeal Cert.KernelIdeal.Gen Idealize.ShloMosaic Idealize.ShloMosaic.TcCoe Idealize.SL.Sem
open Idealize.ShloMosaic.ValueIdx Idealize.ShloMosaic.Pipeline Idealize.ShloMosaic.StableHlo

/-- Row 0 of the edge list — each edge's row endpoint — as a vector of 800000 indices. -/
def endpoint0 (x1 : IVec S2x800000 32) : IVec S800000 32 :=
  shapeCast _ (extractStridedSlice S1x800000 ![0, 0] x1 slices_S2x800000_S1x800000_0_0) shapeCasts_S1x800000_S800000

/-- Row 1 of the edge list — each edge's column endpoint. -/
def endpoint1 (x1 : IVec S2x800000 32) : IVec S800000 32 :=
  shapeCast _ (extractStridedSlice S1x800000 ![1, 0] x1 slices_S2x800000_S1x800000_1_0) shapeCasts_S1x800000_S800000

/-- A negative index counts from the end: 50000 is added to it; then the indices are laid as one column. -/
def wrapped (r : IVec S800000 32) : IVec S800000x1 32 :=
  broadcastInDim S800000x1 ![0] bcast_S800000_S800000x1_0
    (select (cmpi .slt r (broadcastInDim S800000 ![] bcast_S_S800000 (constantI S_ 32 0#32)))
      (addi r (broadcastInDim S800000 ![] bcast_S_S800000 (constantI S_ 32 50000#32))) r)

/-- The node features gathered at a column of indices. -/
def gathered (x0 : FVec Ideal S50000x128 .f32) (idx : IVec S800000x1 32) : FVec Ideal S800000x128 .bf16 :=
  Host.gather gather_S50000x128_S800000x1_S800000x128_1_0_n_n_0_1_1128 (truncf .bf16 x0 bitsLt_bf16_f32) idx

variable (m : (ℓ : Loc nD τ sig) → Buf (Elt Ideal) ℓ) (ρ : Dev nD → PrngReg)

/-! ## The arrays the region finds -/

theorem V_v1 (c : Dev nD) : V m c main_v1 = endpoint0 (m ((c : Thread nD τ).loc main_arg1)) := by
  show StableHlo.after hostOps0 (fun b => m (c, b)) (Proc.devRef .tc main_v1) = _
  after_results <;> first | rfl | (unfold gathered wrapped endpoint0 endpoint1; rfl)

theorem V_v11 (c : Dev nD) : V m c main_v11
    = gathered (m ((c : Thread nD τ).loc main_arg0)) (wrapped (endpoint0 (m ((c : Thread nD τ).loc main_arg1)))) := by
  show StableHlo.after hostOps0 (fun b => m (c, b)) (Proc.devRef .tc main_v11) = _
  after_results <;> first | rfl | (unfold gathered wrapped endpoint0 endpoint1; rfl)

set_option maxHeartbeats 1600000 in
theorem V_v18 (c : Dev nD) : V m c main_v18
    = gathered (m ((c : Thread nD τ).loc main_arg0)) (wrapped (endpoint1 (m ((c : Thread nD τ).loc main_arg1)))) := by
  show StableHlo.after hostOps0 (fun b => m (c, b)) (Proc.devRef .tc main_v18) = _
  after_results <;> first | rfl | (unfold gathered wrapped endpoint0 endpoint1; rfl)

theorem V_v20 (c : Dev nD) : V m c main_v20
    = extractStridedSlice S128x128 ![0, 0] (m ((c : Thread nD τ).loc main_arg3)) slices_S320x128_S128x128_0_0 := by
  show StableHlo.after hostOps0 (fun b => m (c, b)) (Proc.devRef .tc main_v20) = _
  after_results <;> first | rfl | (unfold gathered wrapped endpoint0 endpoint1; rfl)

theorem V_v22 (c : Dev nD) : V m c main_v22
    = extractStridedSlice S128x128 ![128, 0] (m ((c : Thread nD τ).loc main_arg3)) slices_S320x128_S128x128_128_0 := by
  show StableHlo.after hostOps0 (fun b => m (c, b)) (Proc.devRef .tc main_v22) = _
  after_results <;> first | rfl | (unfold gathered wrapped endpoint0 endpoint1; rfl)

theorem V_v24 (c : Dev nD) : V m c main_v24
    = extractStridedSlice S64x128 ![256, 0] (m ((c : Thread nD τ).loc main_arg3)) slices_S320x128_S64x128_256_0 := by
  show StableHlo.after hostOps0 (fun b => m (c, b)) (Proc.devRef .tc main_v24) = _
  after_results <;> first | rfl | (unfold gathered wrapped endpoint0 endpoint1; rfl)

theorem V_v25 (c : Dev nD) : V m c main_v25 = m ((c : Thread nD τ).loc main_arg5) := by
  show StableHlo.after hostOps0 (fun b => m (c, b)) (Proc.devRef .tc main_v25) = _
  after_results <;> first | rfl | (unfold gathered wrapped endpoint0 endpoint1; rfl)

theorem V_v26 (c : Dev nD) : V m c main_v26 = shapeCast S1x128 (m ((c : Thread nD τ).loc main_arg4)) shapeCasts_S128_S1x128 := by
  show StableHlo.after hostOps0 (fun b => m (c, b)) (Proc.devRef .tc main_v26) = _
  after_results <;> first | rfl | (unfold gathered wrapped endpoint0 endpoint1; rfl)

theorem V_v27 (c : Dev nD) : V m c main_v27 = shapeCast S1x128 (m ((c : Thread nD τ).loc main_arg6)) shapeCasts_S128_S1x128 := by
  show StableHlo.after hostOps0 (fun b => m (c, b)) (Proc.devRef .tc main_v27) = _
  after_results <;> first | rfl | (unfold gathered wrapped endpoint0 endpoint1; rfl)

theorem V_v28 (c : Dev nD) : V m c main_v28
    = transpose S1x64 [1, 0] (m ((c : Thread nD τ).loc main_arg7)) transposes_S64x1_S1x64_1_0 := by
  show StableHlo.after hostOps0 (fun b => m (c, b)) (Proc.devRef .tc main_v28) = _
  after_results <;> first | rfl | (unfold gathered wrapped endpoint0 endpoint1; rfl)

theorem V_v29 (c : Dev nD) : V m c main_v29 = shapeCast S1x1 (m ((c : Thread nD τ).loc main_arg8)) shapeCasts_S1_S1x1 := by
  show StableHlo.after hostOps0 (fun b => m (c, b)) (Proc.devRef .tc main_v29) = _
  after_results <;> first | rfl | (unfold gathered wrapped endpoint0 endpoint1; rfl)

/-! ## The messages and the result as functions of the arguments -/

/-- The messages of all edges from the program's arguments: the gathered endpoint rows, the bond features, the three
    bands of the first weight matrix, the biases and the gate weights as rows. -/
def messagesOf (x0 : FVec Ideal S50000x128 .f32) (x1 : IVec S2x800000 32) (x2 : FVec Ideal S800000x64 .f32)
    (x3 : FVec Ideal S320x128 .f32) (x4 : FVec Ideal S128 .f32) (x5 : FVec Ideal S128x128 .f32) (x6 : FVec Ideal S128 .f32)
    (x7 : FVec Ideal S64x1 .f32) (x8 : FVec Ideal S1 .f32) : FVec Ideal S800000x128 .bf16 :=
  Message.msg (E := 800000) (gathered x0 (wrapped (endpoint0 x1))) (gathered x0 (wrapped (endpoint1 x1))) x2
    (extractStridedSlice S128x128 ![0, 0] x3 slices_S320x128_S128x128_0_0)
    (extractStridedSlice S128x128 ![128, 0] x3 slices_S320x128_S128x128_128_0)
    (extractStridedSlice S64x128 ![256, 0] x3 slices_S320x128_S64x128_256_0)
    (shapeCast S1x128 x4 shapeCasts_S128_S1x128) x5 (shapeCast S1x128 x6 shapeCasts_S128_S1x128)
    (transpose S1x64 [1, 0] x7 transposes_S64x1_S1x64_1_0) (shapeCast S1x1 x8 shapeCasts_S1_S1x1)

theorem messages_eq (c : Dev nD) : Region.messages m c = messagesOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  unfold Region.messages messagesOf
  rw [V_v11, V_v18, V_main_arg2, V_v20, V_v22, V_v24, V_v26, V_v25, V_v27, V_v28, V_v29]

/-- The lines after the region: the messages scatter-added into a zero array by row endpoint, added to the features. -/
def resultOf (x0 : FVec Ideal S50000x128 .f32) (x1 : IVec S2x800000 32) (M : FVec Ideal S800000x128 .bf16) :
    FVec Ideal S50000x128 .f32 :=
  addf x0 (Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 (endpoint0 x1))
    (extf .f32 M bitsLt_bf16_f32))

/-- The program's result buffer after the run. -/
theorem result_eq (c : Dev nD) :
    Pipeline.afterTail₀ cfgs (dats m) 0 (V0 m) [hostOps1] c main_v35
      = resultOf (m ((c : Thread nD τ).loc main_arg0)) (m ((c : Thread nD τ).loc main_arg1)) (messagesOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  unfold Pipeline.afterTail₀
  show StableHlo.after hostOps1 _ (Proc.devRef .tc main_v35) = _
  after_results
  rw [Pipeline.withArrays_of_ne _ c (V0 m c) _ main_arg0 (by exact (by decide : ∀ w, Pipeline.arrRef spec0 w ≠ main_arg0)),
    Pipeline.withArrays_of_ne _ c (V0 m c) _ main_v1 (by exact (by decide : ∀ w, Pipeline.arrRef spec0 w ≠ main_v1)),
    show Pipeline.withArrays (cfgs 0).spec c (V0 m c) (fun w => (dats m 0 c).arrAt w (cfgs 0).N) (Proc.devRef .tc main_v30)
      = messagesOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) from
      (Pipeline.withArrays_arr spec0 launch0.win.arr_inj c _ _ 11).trans ((Region.final m c).trans (messages_eq m c))]
  rw [show V0 m c (Proc.devRef .tc main_arg0) = m ((c : Thread nD τ).loc main_arg0) from V_main_arg0 m c,
    show V0 m c (Proc.devRef .tc main_v1) = endpoint0 (m ((c : Thread nD τ).loc main_arg1)) from V_v1 m c]
  rfl

/-! ## The run -/

/-- Every weakly fair execution ends with the result buffer at `resultOf` of the arguments and the arguments unchanged. -/
theorem run : θ_run defs (onTc (τ := τ) (main (F := Ideal))) ⟨m, fun _ => 0, ρ⟩ (fun r => ∀ c : Dev nD,
      r.2.mem ((c.tc : Thread nD τ).loc main_v35)
        = resultOf (m ((c : Thread nD τ).loc main_arg0)) (m ((c : Thread nD τ).loc main_arg1)) (messagesOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_v35 (Pipeline.mem_restRefs_of main_v35 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c))⟩)
    (run_main m ρ)

end Cert.KernelIdeal.HostSide

end
-- ==== Proof.LibPlainDot.lean ====
/-
  A plain matrix product at the exact extended reals: for dimension numbers that contract the left operand's
  second axis against the right operand's first (no batch axis), the contraction sum at the output entry (p, q)
  is the sum over k of left (p, k) times right (k, q). From that, two readings of "rows times columns plus a row
  vector": a matrix unit's product into a zero accumulator with the vector re-laid as one row and repeated down the
  rows, and a host contraction with the vector broadcast in two steps. Both are the function `affine`. Also: the
  logistic function is one over one plus the exponential of the negated argument, on every extended real.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibPlainDot

open Idealize.ShloMosaic Idealize.ShloMosaic.ValueIdx

/-- The output entry (p, q) of rows-times-columns plus a row vector: the sum over k of x (p, k) · w (k, q), plus b q. -/
def affine {M K N : ℕ} (x : FVec Ideal ⟨2, ![M, K]⟩ .f32) (w : FVec Ideal ⟨2, ![K, N]⟩ .f32) (b : FVec Ideal ⟨1, ![N]⟩ .f32) :
    FVec Ideal ⟨2, ![M, N]⟩ .f32 :=
  fun i => (∑ k : Fin K, x (ix2 (n0 := M) (i 0) k) * w (ix2 (n1 := N) k (i 1))) + b (ix1 (n := N) (i 1))

theorem affine_apply {M K N : ℕ} (x : FVec Ideal ⟨2, ![M, K]⟩ .f32) (w : FVec Ideal ⟨2, ![K, N]⟩ .f32) (b : FVec Ideal ⟨1, ![N]⟩ .f32)
    (p : Fin M) (q : Fin N) : affine x w b (ix2 p q) = (∑ k : Fin K, x (ix2 p k) * w (ix2 k q)) + b (ix1 q) := rfl

/-- A block of T rows of `affine`: when x holds rows r … r + T − 1 of X, and w and b are W and B, the block's entry at y
    is `affine X W B` at the array index i whose row is r plus y's row and whose column is y's. -/
theorem affine_rows {M K N T : ℕ} (X : FVec Ideal ⟨2, ![M, K]⟩ .f32) (W : FVec Ideal ⟨2, ![K, N]⟩ .f32) (B : FVec Ideal ⟨1, ![N]⟩ .f32)
    (x : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = X (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    affine x w b y = affine X W B i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [affine_apply, affine_apply, hb]
  refine congrArg (· + B (ix1 q')) (Finset.sum_congr rfl fun k _ => ?_)
  rw [hx p k (h0 ▸ p'.isLt), hw, ← hp']

/-- The contraction index of a plain product is its one coordinate, so the contraction sum is a sum over `Fin K`. -/
theorem plain_sum {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  simp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have c1 : D.lhsContracting = [1] := by subst hD; rfl
  have c2 : D.rhsContracting = [0] := by subst hD; rfl
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ =>
      subst hD
      unfold DotDims.lhsIdx
      split
      · rename_i hb; exact absurd hb List.not_mem_nil
      · split
        · rfl
        · rename_i hn; exact absurd (List.mem_singleton.mpr rfl) hn
    | ⟨1, _⟩ => exact (D.lhsIdx_val_of_single c1 _ _).trans hk)
  have er : D.rhsIdx (ix2 p q) ((contrEquiv1 D K hr hs).symm k) = ix2 k q := funext fun a => Fin.ext (by
    match a with
    | ⟨0, _⟩ => exact (D.rhsIdx_val_of_single c2 _ _).trans hk
    | ⟨1, _⟩ =>
      subst hD
      unfold DotDims.rhsIdx
      split
      · rename_i hb; exact absurd hb List.not_mem_nil
      · split
        · rfl
        · rename_i hn; exact absurd (List.mem_singleton.mpr rfl) hn)
  rw [el, er]

/-- A matrix unit's product of two operands narrowed to bf16 into a zero accumulator, plus a vector re-laid as one
    row and repeated down the rows: at (p, q) it is `affine`. Narrowing is the identity on exact values. -/
theorem matmul_bias_apply {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hb : FTy.bf16.bits < FTy.f32.bits)
    (hc : (⟨1, ![N]⟩ : Shape).ShapeCasts ⟨2, ![1, N]⟩) (hbc : (⟨2, ![1, N]⟩ : Shape).Broadcasts ⟨2, ![M, N]⟩)
    (p : Fin M) (q : Fin N) :
    addf (matmul d none (truncf .bf16 x hb) (truncf .bf16 w hb) (constant ⟨2, ![M, N]⟩ .f32 0x00000000#32))
        (broadcastTo ⟨2, ![M, N]⟩ (shapeCast ⟨2, ![1, N]⟩ b hc) hbc) (ix2 p q)
      = affine x w b (ix2 p q) := by
  rw [affine_apply, addf_apply, broadcastTo_1b_ab_apply, shapeCast_a_1a_apply]
  refine congrArg (· + b (ix1 q)) ?_
  refine (Ideal.matmul_constant_zero_apply d none _ _ (ix2 p q)).trans ?_
  exact plain_sum d h1 h2 h3 h4 h5 h6 x w p q

/-- A vector broadcast to one row reads, at (u, i), the vector at i. -/
theorem bcast_a_1a_apply {a : ℕ} (x : (⟨1, ![a]⟩ : Shape).Idx → EReal)
    (h : (⟨1, ![a]⟩ : Shape).BroadcastsInDim ⟨2, ![1, a]⟩ ![1]) (u : Fin 1) (i : Fin a) :
    broadcastInDim ⟨2, ![1, a]⟩ ![1] h x (ix2 u i) = x (ix1 i) :=
  broadcastInDim_apply _ h x _ _ (fun ax => match ax with
    | ⟨0, _⟩ => by
      show i.val = if a = 1 then 0 else i.val
      split
      · have := i.isLt; omega
      · rfl)

/-- One row broadcast down the rows reads, at (p, c), the row at c. -/
theorem bcast_1b_ab_apply {a b : ℕ} (v : (⟨2, ![1, b]⟩ : Shape).Idx → EReal)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ (ix2 (0 : Fin 1) c) (fun ax => match ax with
    | ⟨0, _⟩ => by
      show (0 : ℕ) = if (1 : ℕ) = 1 then 0 else p.val
      rw [if_pos rfl]
    | ⟨1, _⟩ => by
      show c.val = if b = 1 then 0 else c.val
      split
      · have := c.isLt; omega
      · rfl)

/-- A host contraction of the same kind plus the vector broadcast to one row and then down the rows: `affine`. -/
theorem dot_bias_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1]) :
    addf (Host.dotGeneral (F := Ideal) d none x w)
        (broadcastInDim ⟨2, ![M, N]⟩ ![0, 1] hbc (broadcastInDim ⟨2, ![1, N]⟩ ![1] hr b))
      = affine x w b := by
  funext j
  obtain ⟨p, q, rfl⟩ : ∃ (p : Fin M) (q : Fin N), j = ix2 p q := ⟨j 0, j 1, eq_ix2 j⟩
  rw [affine_apply, addf_apply, bcast_1b_ab_apply, bcast_a_1a_apply]
  refine congrArg (· + b (ix1 q)) ?_
  simp only [Host.dotGeneral]
  rw [Ideal.dotGeneral_apply]
  exact plain_sum d h1 h2 h3 h4 h5 h6 x w p q

/-- The float word of 1.0 denotes the extended real one. -/
theorem one_f32 : Ideal.ofBits .f32 0x3F800000#32 = 1 := IdealRules.sign_bit.ideal_onePat .f32

/-- The host's spelling of the logistic function — one over (one plus the exponential of the negation), the ones
    broadcast constants — is, entry by entry, the logistic function a vector unit applies. -/
theorem host_sigmoid_eq {s : Shape} (y : FVec Ideal s .f32) (h : (⟨0, ![]⟩ : Shape).BroadcastsInDim s ![]) :
    Host.divf (F := Ideal) (broadcastInDim s ![] h (constant (F := Ideal) ⟨0, ![]⟩ .f32 0x3F800000#32))
        (addf (broadcastInDim s ![] h (constant (F := Ideal) ⟨0, ![]⟩ .f32 0x3F800000#32)) (Host.exp (F := Ideal) (Host.negf (F := Ideal) y)))
      = logistic y := by
  funext i
  simp only [Host.divf, Host.exp, Host.negf, addf, logistic, broadcastInDim, constant, Ideal.hostDivf_def, Ideal.logistic_def,
    Ideal.ofBits_def, one_f32, Ideal.logistic, Ideal.addf_def, Ideal.hostUnary_exp_def, Ideal.hostNegf_def, Ideal.negf_def]

/-- One graph layer's update of the node features: the logistic function of (features plus aggregated neighbours) times
    the weights plus the bias. -/
def ginLayer {M K N : ℕ} (h n : FVec Ideal ⟨2, ![M, K]⟩ .f32) (w : FVec Ideal ⟨2, ![K, N]⟩ .f32) (b : FVec Ideal ⟨1, ![N]⟩ .f32) :
    FVec Ideal ⟨2, ![M, N]⟩ .f32 :=
  fun i => Ideal.logistic (affine (fun j => h j + n j) w b i)

/-- The vector unit's form: the two operands (each through an identity re-lay) added, narrowed, multiplied into a zero
    accumulator, the bias row added, the logistic function applied. -/
theorem gin_pay_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x n : FVec Ideal ⟨2, ![M, K]⟩ .f32) (w : FVec Ideal ⟨2, ![K, N]⟩ .f32) (b : FVec Ideal ⟨1, ![N]⟩ .f32)
    (hb : FTy.bf16.bits < FTy.f32.bits) (hs : (⟨2, ![M, K]⟩ : Shape).ShapeCasts ⟨2, ![M, K]⟩)
    (hc : (⟨1, ![N]⟩ : Shape).ShapeCasts ⟨2, ![1, N]⟩) (hbc : (⟨2, ![1, N]⟩ : Shape).Broadcasts ⟨2, ![M, N]⟩) :
    logistic (addf (matmul d none (truncf .bf16 (addf (shapeCast ⟨2, ![M, K]⟩ x hs) (shapeCast ⟨2, ![M, K]⟩ n hs)) hb) (truncf .bf16 w hb)
        (constant ⟨2, ![M, N]⟩ .f32 0x00000000#32)) (broadcastTo ⟨2, ![M, N]⟩ (shapeCast ⟨2, ![1, N]⟩ b hc) hbc))
      = ginLayer x n w b := by
  funext j
  obtain ⟨p, q, rfl⟩ : ∃ (p : Fin M) (q : Fin N), j = ix2 p q := ⟨j 0, j 1, eq_ix2 j⟩
  rw [shapeCast_self, shapeCast_self]
  show Ideal.logistic _ = Ideal.logistic _
  exact congrArg Ideal.logistic (matmul_bias_apply d h1 h2 h3 h4 h5 h6 (addf x n) w b hb hc hbc p q)

/-- A block of T rows of a layer's update, as `affine_rows`. -/
theorem ginLayer_rows {M K N T : ℕ} (H Nb : FVec Ideal ⟨2, ![M, K]⟩ .f32) (W : FVec Ideal ⟨2, ![K, N]⟩ .f32) (B : FVec Ideal ⟨1, ![N]⟩ .f32)
    (x n : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = H (ix2 ⟨r + p.val, hp⟩ k))
    (hn : ∀ (p : Fin T) (k : Fin K) (hp : r + p.val < M), n (ix2 p k) = Nb (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    ginLayer x n w b y = ginLayer H Nb W B i :=
  congrArg Ideal.logistic (affine_rows (fun j => H j + Nb j) W B (fun j => x j + n j) w b r
    (fun p k hp => by show x (ix2 p k) + n (ix2 p k) = _; rw [hx p k hp, hn p k hp]) hw hb y i hi0 hi1)

/-- The host's form: the contraction of the sum with the weights, the bias broadcast in two steps, and the logistic
    function spelt as one over one plus the exponential of the negation. -/
theorem host_gin_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (h n : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1])
    (hone : (⟨0, ![]⟩ : Shape).BroadcastsInDim ⟨2, ![M, N]⟩ ![]) :
    Host.divf (F := Ideal) (broadcastInDim ⟨2, ![M, N]⟩ ![] hone (constant (F := Ideal) ⟨0, ![]⟩ .f32 0x3F800000#32))
        (addf (broadcastInDim ⟨2, ![M, N]⟩ ![] hone (constant (F := Ideal) ⟨0, ![]⟩ .f32 0x3F800000#32))
          (Host.exp (F := Ideal) (Host.negf (F := Ideal) (addf (Host.dotGeneral (F := Ideal) d none (addf h n) w)
            (broadcastInDim ⟨2, ![M, N]⟩ ![0, 1] hbc (broadcastInDim ⟨2, ![1, N]⟩ ![1] hr b))))))
      = ginLayer h n w b := by
  rw [host_sigmoid_eq, dot_bias_eq d h1 h2 h3 h4 h5 h6 (addf h n) w b hr hbc]
  rfl

end Cert.LibPlainDot

end
-- ==== Proof.RefSide.lean ====
/-
  The reference program's messages array, entry by entry, is the message function of `Message`: its one product of
  the joined row (row-endpoint features, column-endpoint features, bond features side by side) with the whole 320-row
  weight matrix is the sum of the three band products; its gate, spelt one over one plus the exponential of the
  negation, is the logistic function; its biases broadcast in two steps are the bias rows.
-/
import proofs.«172277_j35914516529888_2_alg».proof.Proof.Gen.ReferenceIdeal.Read
import proofs.«172277_j35914516529888_2_alg».proof.Proof.LibPlainDot
import proofs.«172277_j35914516529888_2_alg».proof.Proof.Message
import Idealize.ShloMosaic.Lib.ValueLayout

noncomputable section

namespace Cert.ReferenceIdeal.RefSide

open Cert.ReferenceIdeal Cert.ReferenceIdeal.Gen Cert.ReferenceIdeal.Read Idealize.ShloMosaic Idealize.ShloMosaic.ValueIdx

/-! ## The index maps of the reference's operations, by coordinates -/

section Idx
variable (e : Fin 800000) (j k : Fin 128) (q : Fin 320) (u : Fin 1) (b : Fin 64)

theorem lidx34 : lidx_main_v34 (ix2 e j) k = ix2 e k := funext fun a => Fin.ext (by match a with | ⟨0, _⟩ => rfl | ⟨1, _⟩ => rfl)
theorem ridx34 : ridx_main_v34 (ix2 e j) k = ix2 k j := funext fun a => Fin.ext (by match a with | ⟨0, _⟩ => rfl | ⟨1, _⟩ => rfl)
theorem lidx29 : lidx_main_v29 (ix2 e k) q = ix2 e q := funext fun a => Fin.ext (by match a with | ⟨0, _⟩ => rfl | ⟨1, _⟩ => rfl)
theorem ridx29 : ridx_main_v29 (ix2 e k) q = ix2 q k := funext fun a => Fin.ext (by match a with | ⟨0, _⟩ => rfl | ⟨1, _⟩ => rfl)
theorem lidx4 : lidx_main_v4 (ix2 e u) b = ix2 e b := funext fun a => Fin.ext (by match a with | ⟨0, _⟩ => rfl | ⟨1, _⟩ => rfl)
theorem ridx4 : ridx_main_v4 (ix2 e u) b = ix2 b u := funext fun a => Fin.ext (by match a with | ⟨0, _⟩ => rfl | ⟨1, _⟩ => rfl)
theorem idx38 : idx_main_v38 (ix2 e j) = ix2 e (0 : Fin 1) := funext fun a => Fin.ext (by match a with | ⟨0, _⟩ => rfl | ⟨1, _⟩ => rfl)
theorem idx31_30 : idx_main_v30 (idx_main_v31 (ix2 e k)) = ix1 k := funext fun a => Fin.ext (by match a with | ⟨0, _⟩ => rfl)
theorem idx36_35 : idx_main_v35 (idx_main_v36 (ix2 e j)) = ix1 j := funext fun a => Fin.ext (by match a with | ⟨0, _⟩ => rfl)
theorem idx6_5 : idx_main_v5 (idx_main_v6 (ix2 e u)) = ix1 (0 : Fin 1) := funext fun a => Fin.ext (by match a with | ⟨0, _⟩ => rfl)

end Idx

/-! ## The joined row -/

theorem join_left (x0 : FVec Ideal S50000x128 .f32) (x1 : IVec S2x800000 32) (x2 : FVec Ideal S800000x64 .f32)  (e : Fin 800000) (a : Fin 128) :
    val_main_v28 (F := Ideal) x0 x1 x2 (ix2 e (⟨a.val, by omega⟩ : Fin 320)) = val_main_v20 (F := Ideal) x0 x1 (ix2 e a) := by
  unfold val_main_v28
  exact concatenate_apply_piece (t := S800000x320) (1 : Fin 2) (xs := [⟨S800000x128, val_main_v20 (F := Ideal) x0 x1⟩, ⟨S800000x128, val_main_v27 (F := Ideal) x0 x1⟩, ⟨S800000x64, x2⟩]) concatenates_S800000x128_S800000x128_S800000x64_S800000x320_d1 _ 0 (by show (0 : ℕ) < 3; omega)
    S800000x128 _ rfl rfl 0 rfl (ix2 e a)
    (fun b hb => by match b with | ⟨0, _⟩ => rfl | ⟨1, _⟩ => exact absurd rfl hb) (Nat.zero_add _)

theorem join_mid (x0 : FVec Ideal S50000x128 .f32) (x1 : IVec S2x800000 32) (x2 : FVec Ideal S800000x64 .f32)  (e : Fin 800000) (a : Fin 128) :
    val_main_v28 (F := Ideal) x0 x1 x2 (ix2 e (⟨128 + a.val, by omega⟩ : Fin 320)) = val_main_v27 (F := Ideal) x0 x1 (ix2 e a) := by
  unfold val_main_v28
  exact concatenate_apply_piece (t := S800000x320) (1 : Fin 2) (xs := [⟨S800000x128, val_main_v20 (F := Ideal) x0 x1⟩, ⟨S800000x128, val_main_v27 (F := Ideal) x0 x1⟩, ⟨S800000x64, x2⟩]) concatenates_S800000x128_S800000x128_S800000x64_S800000x320_d1 _ 1 (by show (1 : ℕ) < 3; omega)
    S800000x128 _ rfl rfl 128 rfl (ix2 e a)
    (fun b hb => by match b with | ⟨0, _⟩ => rfl | ⟨1, _⟩ => exact absurd rfl hb) rfl

theorem join_right (x0 : FVec Ideal S50000x128 .f32) (x1 : IVec S2x800000 32) (x2 : FVec Ideal S800000x64 .f32)  (e : Fin 800000) (b : Fin 64) :
    val_main_v28 (F := Ideal) x0 x1 x2 (ix2 e (⟨256 + b.val, by omega⟩ : Fin 320)) = x2 (ix2 e b) := by
  unfold val_main_v28
  exact concatenate_apply_piece (t := S800000x320) (1 : Fin 2) (xs := [⟨S800000x128, val_main_v20 (F := Ideal) x0 x1⟩, ⟨S800000x128, val_main_v27 (F := Ideal) x0 x1⟩, ⟨S800000x64, x2⟩]) concatenates_S800000x128_S800000x128_S800000x64_S800000x320_d1 _ 2 (by show (2 : ℕ) < 3; omega)
    S800000x64 _ rfl rfl 256 rfl (ix2 e b)
    (fun c hc => by match c with | ⟨0, _⟩ => rfl | ⟨1, _⟩ => exact absurd rfl hc) rfl

/-! ## The three bands of the weight matrix -/

section Bands
variable (x3 : FVec Ideal S320x128 .f32)
  (hA : (⟨2, ![320, 128]⟩ : Shape).Slices ![0, 0] ⟨2, ![128, 128]⟩)
  (hB : (⟨2, ![320, 128]⟩ : Shape).Slices ![128, 0] ⟨2, ![128, 128]⟩)
  (hC : (⟨2, ![320, 128]⟩ : Shape).Slices ![256, 0] ⟨2, ![64, 128]⟩)

theorem bandA_apply (a k : Fin 128) :
    extractStridedSlice ⟨2, ![128, 128]⟩ ![0, 0] x3 hA (ix2 a k) = x3 (ix2 (⟨a.val, by omega⟩ : Fin 320) k) :=
  slice2_axis0_apply 0 x3 hA a k ⟨a.val, by omega⟩ (Nat.zero_add _).symm

theorem bandB_apply (a k : Fin 128) :
    extractStridedSlice ⟨2, ![128, 128]⟩ ![128, 0] x3 hB (ix2 a k) = x3 (ix2 (⟨128 + a.val, by omega⟩ : Fin 320) k) :=
  slice2_axis0_apply 128 x3 hB a k ⟨128 + a.val, by omega⟩ rfl

theorem bandC_apply (b : Fin 64) (k : Fin 128) :
    extractStridedSlice ⟨2, ![64, 128]⟩ ![256, 0] x3 hC (ix2 b k) = x3 (ix2 (⟨256 + b.val, by omega⟩ : Fin 320) k) :=
  slice2_axis0_apply 256 x3 hC b k ⟨256 + b.val, by omega⟩ rfl

end Bands

/-! ## The first layer, the gate, the messages -/

theorem hidden_ref (x0 : FVec Ideal S50000x128 .f32) (x1 : IVec S2x800000 32) (x2 : FVec Ideal S800000x64 .f32) (x3 : FVec Ideal S320x128 .f32) (x4 : FVec Ideal S128 .f32)
    (hA : (⟨2, ![320, 128]⟩ : Shape).Slices ![0, 0] ⟨2, ![128, 128]⟩)
    (hB : (⟨2, ![320, 128]⟩ : Shape).Slices ![128, 0] ⟨2, ![128, 128]⟩)
    (hC : (⟨2, ![320, 128]⟩ : Shape).Slices ![256, 0] ⟨2, ![64, 128]⟩)
    (hb : (⟨1, ![128]⟩ : Shape).ShapeCasts ⟨2, ![1, 128]⟩) (e : Fin 800000) (k : Fin 128) :
    val_main_v33 (F := Ideal) x0 x1 x2 x3 x4 (ix2 e k)
      = Message.hidden (E := 800000) (val_main_v20 (F := Ideal) x0 x1) (val_main_v27 (F := Ideal) x0 x1) x2
          (extractStridedSlice ⟨2, ![128, 128]⟩ ![0, 0] x3 hA) (extractStridedSlice ⟨2, ![128, 128]⟩ ![128, 0] x3 hB)
          (extractStridedSlice ⟨2, ![64, 128]⟩ ![256, 0] x3 hC) (shapeCast ⟨2, ![1, 128]⟩ x4 hb) e k := by
  rw [val_main_v33_apply, val_main_v32_apply, val_main_v29_apply, val_main_v31_apply, val_main_v30_apply,
    val_main_call0_v0_apply, val_main_call0_cst_apply, idx31_30, Message.sum_three_bands]
  unfold Message.hidden
  simp only [lidx29, ridx29, join_left, join_mid, join_right, bandA_apply, bandB_apply, bandC_apply, shapeCast_a_1a_apply]
  rfl

theorem sigmoid_ref (x2 : FVec Ideal S800000x64 .f32) (x7 : FVec Ideal S64x1 .f32) (x8 : FVec Ideal S1 .f32) (i : S800000x1.Idx) :
    val_main_v13 (F := Ideal) x2 x7 x8 i = Ideal.logistic (val_main_v7 (F := Ideal) x2 x7 x8 i) := by
  unfold val_main_v13 val_main_v12 val_main_v11 val_main_v10 val_main_v9 val_main_v8 val_main_cst val_main_cst_0
  exact congrFun (LibPlainDot.host_sigmoid_eq (val_main_v7 (F := Ideal) x2 x7 x8) bcast_S_S800000x1) i

theorem gate_ref (x2 : FVec Ideal S800000x64 .f32) (x7 : FVec Ideal S64x1 .f32) (x8 : FVec Ideal S1 .f32)
    (ht : (⟨2, ![64, 1]⟩ : Shape).Transposes [1, 0] ⟨2, ![1, 64]⟩) (hc : (⟨1, ![1]⟩ : Shape).ShapeCasts ⟨2, ![1, 1]⟩)
    (e : Fin 800000) :
    val_main_v13 (F := Ideal) x2 x7 x8 (ix2 e (0 : Fin 1))
      = Message.gate (E := 800000) x2 (transpose ⟨2, ![1, 64]⟩ [1, 0] x7 ht) (shapeCast ⟨2, ![1, 1]⟩ x8 hc) e := by
  rw [sigmoid_ref, val_main_v7_apply, val_main_v4_apply, val_main_v6_apply, val_main_v5_apply, idx6_5]
  unfold Message.gate
  simp only [lidx4, ridx4, shapeCast_a_1a_apply]
  refine congrArg Ideal.logistic (congrArg (· + x8 (ix1 (0 : Fin 1))) (Finset.sum_congr rfl fun b _ => ?_))
  rw [transpose_ix2_apply]

/-- The reference's messages array is the message function of the gathered rows, the bond features, the three bands
    of the first weight matrix and the re-laid biases and gate weights. -/
theorem messages_ref (x0 : FVec Ideal S50000x128 .f32) (x1 : IVec S2x800000 32) (x2 : FVec Ideal S800000x64 .f32) (x3 : FVec Ideal S320x128 .f32) (x4 : FVec Ideal S128 .f32) (x5 : FVec Ideal S128x128 .f32) (x6 : FVec Ideal S128 .f32) (x7 : FVec Ideal S64x1 .f32) (x8 : FVec Ideal S1 .f32)
    (hA : (⟨2, ![320, 128]⟩ : Shape).Slices ![0, 0] ⟨2, ![128, 128]⟩)
    (hB : (⟨2, ![320, 128]⟩ : Shape).Slices ![128, 0] ⟨2, ![128, 128]⟩)
    (hC : (⟨2, ![320, 128]⟩ : Shape).Slices ![256, 0] ⟨2, ![64, 128]⟩)
    (hb : (⟨1, ![128]⟩ : Shape).ShapeCasts ⟨2, ![1, 128]⟩)
    (ht : (⟨2, ![64, 1]⟩ : Shape).Transposes [1, 0] ⟨2, ![1, 64]⟩) (hc : (⟨1, ![1]⟩ : Shape).ShapeCasts ⟨2, ![1, 1]⟩) :
    val_main_v39 (F := Ideal) x0 x1 x2 x3 x4 x5 x6 x7 x8
      = Message.msg (E := 800000) (val_main_v20 (F := Ideal) x0 x1) (val_main_v27 (F := Ideal) x0 x1) x2
          (extractStridedSlice ⟨2, ![128, 128]⟩ ![0, 0] x3 hA) (extractStridedSlice ⟨2, ![128, 128]⟩ ![128, 0] x3 hB)
          (extractStridedSlice ⟨2, ![64, 128]⟩ ![256, 0] x3 hC) (shapeCast ⟨2, ![1, 128]⟩ x4 hb) x5
          (shapeCast ⟨2, ![1, 128]⟩ x6 hb) (transpose ⟨2, ![1, 64]⟩ [1, 0] x7 ht) (shapeCast ⟨2, ![1, 1]⟩ x8 hc) := by
  funext i
  obtain ⟨e, j, rfl⟩ : ∃ (e : Fin 800000) (j : Fin 128), i = ix2 e j := ⟨i 0, i 1, eq_ix2 i⟩
  rw [Message.msg_apply, val_main_v39_apply, val_main_v37_apply, val_main_v38_apply, val_main_v34_apply, val_main_v36_apply,
    val_main_v35_apply, idx38, idx36_35, gate_ref x2 x7 x8 ht hc e]
  unfold Message.msgAt
  simp only [lidx34, ridx34, hidden_ref x0 x1 x2 x3 x4 hA hB hC hb, shapeCast_a_1a_apply]
  rfl

end Cert.ReferenceIdeal.RefSide

end
-- ==== Proof.lean ====
/-
  A graph convolution's message passing, computed two ways. For every edge the message is a two-layer perceptron of
  the two endpoint feature rows and the bond features, times a logistic gate of the bond features; the messages are
  added into their row endpoints and the sums are added to the node features.

  The vector-unit program gathers the endpoint rows on the host, computes the messages in 125 bands of 6400 edges — the
  first layer as three matrix products against the three row bands of the weight matrix, the gate as a lane sum — and
  scatter-adds them on the host. The reference joins the gathered rows and the bond features side by side, multiplies by
  the whole weight matrix once, spells the gate as one over one plus an exponential, and scatter-adds in the same way.

  On the extended reals both messages arrays are ONE function of the arguments (`Cert.Message.msg`): a sum over 320
  terms is the sum of its three bands (associativity of addition only; no input need be finite), the lane sum is the
  contraction, changes of float format keep every value. The two programs then apply the same scatter-add and the same
  final addition to equal operands, so these are never opened.
-/
import proofs.«172277_j35914516529888_2_alg».proof.Defs
import proofs.«172277_j35914516529888_2_alg».proof.Proof.Gen.Kernel
import proofs.«172277_j35914516529888_2_alg».proof.Proof.Gen.Kernel.Frame
import proofs.«172277_j35914516529888_2_alg».proof.Proof.Gen.KernelIdeal
import proofs.«172277_j35914516529888_2_alg».proof.Proof.Gen.KernelIdeal.Frame
import proofs.«172277_j35914516529888_2_alg».proof.Proof.Gen.ReferenceIdeal
import proofs.«172277_j35914516529888_2_alg».proof.Proof.Gen.Pre_finite_inputs
import proofs.«172277_j35914516529888_2_alg».proof.Proof.Gen.ReferenceIdeal.Run
import proofs.«172277_j35914516529888_2_alg».proof.Proof.Gen.ReferenceIdeal.Read
import proofs.«172277_j35914516529888_2_alg».proof.Proof.HostSide
import proofs.«172277_j35914516529888_2_alg».proof.Proof.RefSide
import Idealize.ShloMosaic.Adequacy
import Idealize.ShloMosaic.Init

noncomputable section

namespace Cert.Proof

open Idealize.ShloMosaic Idealize.ShloMosaic.TcCoe Idealize.SL.Sem

/-! ## The two programs' host lines agree -/

section Agree
variable (x0 : FVec Ideal Cert.KernelIdeal.S50000x128 .f32) (x1 : IVec Cert.KernelIdeal.S2x800000 32) (x2 : FVec Ideal Cert.KernelIdeal.S800000x64 .f32)
  (x3 : FVec Ideal Cert.KernelIdeal.S320x128 .f32) (x4 : FVec Ideal Cert.KernelIdeal.S128 .f32) (x5 : FVec Ideal Cert.KernelIdeal.S128x128 .f32)
  (x6 : FVec Ideal Cert.KernelIdeal.S128 .f32) (x7 : FVec Ideal Cert.KernelIdeal.S64x1 .f32) (x8 : FVec Ideal Cert.KernelIdeal.S1 .f32)

/-- Both programs gather the node features at the same wrapped indices; a change of float format keeps the features. -/
theorem gather_rows : Cert.KernelIdeal.HostSide.gathered x0 (Cert.KernelIdeal.HostSide.wrapped (Cert.KernelIdeal.HostSide.endpoint0 x1))
    = Cert.ReferenceIdeal.Read.val_main_v20 (F := Ideal) x0 x1 := rfl

theorem gather_cols : Cert.KernelIdeal.HostSide.gathered x0 (Cert.KernelIdeal.HostSide.wrapped (Cert.KernelIdeal.HostSide.endpoint1 x1))
    = Cert.ReferenceIdeal.Read.val_main_v27 (F := Ideal) x0 x1 := rfl

/-- The reference's result is the vector-unit program's: the same tail applied to the same messages. -/
theorem result_agree : Cert.ReferenceIdeal.Read.val_main_v43 (F := Ideal) x0 x1 x2 x3 x4 x5 x6 x7 x8
    = Cert.KernelIdeal.HostSide.resultOf x0 x1 (Cert.KernelIdeal.HostSide.messagesOf x0 x1 x2 x3 x4 x5 x6 x7 x8) := by
  unfold Cert.ReferenceIdeal.Read.val_main_v43 Cert.ReferenceIdeal.Read.val_main_v42 Cert.KernelIdeal.HostSide.resultOf Cert.KernelIdeal.HostSide.messagesOf
  rw [Cert.ReferenceIdeal.RefSide.messages_ref x0 x1 x2 x3 x4 x5 x6 x7 x8 Cert.KernelIdeal.Facts₀.slices_S320x128_S128x128_0_0
    Cert.KernelIdeal.Facts₀.slices_S320x128_S128x128_128_0 Cert.KernelIdeal.Facts₀.slices_S320x128_S64x128_256_0 Cert.KernelIdeal.Facts₀.shapeCasts_S128_S1x128
    Cert.KernelIdeal.Facts₀.transposes_S64x1_S1x64_1_0 Cert.KernelIdeal.Facts₀.shapeCasts_S1_S1x1, gather_rows, gather_cols]
  rfl

end Agree

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Nothing was rewritten when the vector-unit program was idealized. -/
theorem preserves : Cert.preserves_Kernel_KernelIdeal := trivial

/-- Both idealized programs end with the node features plus the scatter-added messages of the arguments. -/
theorem algebraic : Cert.algebraic_KernelIdeal_ReferenceIdeal := by
  intro m ρ m' ρ' _ hagree
  refine ⟨fun c => Cert.KernelIdeal.HostSide.resultOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (Cert.KernelIdeal.HostSide.messagesOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))),
    Cert.KernelIdeal.HostSide.run m ρ, ?_⟩
  refine (θ_run Cert.ReferenceIdeal.defs _ _).mono (fun _ h c => ⟨(h c).1.trans ?_, (h c).2⟩) (Cert.ReferenceIdeal.Value.run (F := Ideal) m' ρ')
  rw [Cert.ReferenceIdeal.Read.val_main_v43_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
  exact result_agree _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
